-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x1024x1024 : Shape := ⟨4, ![32, 1, 1024, 1024]⟩
abbrev S32x1x16384x2x2 : Shape := ⟨5, ![32, 1, 16384, 2, 2]⟩
abbrev S32x1 : Shape := ⟨2, ![32, 1]⟩
abbrev S_ : Shape := ⟨0, ![]⟩

class Facts : Prop where
  bcast_S_S32x1x1024x1024 : S_.BroadcastsInDim S32x1x1024x1024 (![] : Fin 0 → Fin S32x1x1024x1024.rank)
  reducesTo_S32x1x1024x1024_S_d0_1_2_3 : S32x1x1024x1024.ReducesTo [0, 1, 2, 3] S_
  h_S_ : 0 < S_.numel

variable [Facts]

def fn {F : FTy → Type} [FloatOps F] (main_arg0 : FVec F S32x1x1024x1024 .f32) (main_arg1 : IVec S32x1x16384x2x2 32) (main_arg2 : IVec S32x1x16384x2x2 32) (main_arg3 : IVec S32x1 32) (main_arg4 : IVec S32x1 32) : IVec S_ 1 :=
  let main_v0 : FVec F S32x1x1024x1024 .f32 := Host.absf main_arg0
  let main_cst : FVec F S_ .f32 := constant S_ .f32 0x7F800000#32
  let main_v1 : FVec F S32x1x1024x1024 .f32 := broadcastInDim S32x1x1024x1024 ![] bcast_S_S32x1x1024x1024 main_cst
  let main_v2 : IVec S32x1x1024x1024 1 := cmpf .olt main_v0 main_v1
  let main_c : IVec S_ 1 := constantI S_ 1 1#1
  let main_v3 : IVec S_ 1 := (fun x v => Host.reduce IntOp.andi x v reducesTo_S32x1x1024x1024_S_d0_1_2_3 h_S_) main_v2 main_c
  main_v3
-- ==== Kernel.lean ====
abbrev S32x1x1024x1024 : Shape := ⟨4, ![32, 1, 1024, 1024]⟩
abbrev S32x1x16384x2x2 : Shape := ⟨5, ![32, 1, 16384, 2, 2]⟩
abbrev S32x1 : Shape := ⟨2, ![32, 1]⟩
abbrev S32x1x1048576 : Shape := ⟨3, ![32, 1, 1048576]⟩
abbrev S32x1x16384x1x1 : Shape := ⟨5, ![32, 1, 16384, 1, 1]⟩
abbrev S32x1x16384 : Shape := ⟨3, ![32, 1, 16384]⟩
abbrev S_ : Shape := ⟨0, ![]⟩
abbrev S32x16384x1 : Shape := ⟨3, ![32, 16384, 1]⟩
abbrev S1 : Shape := ⟨1, ![1]⟩
abbrev S1x1x1 : Shape := ⟨3, ![1, 1, 1]⟩
abbrev S32x16384 : Shape := ⟨2, ![32, 16384]⟩
abbrev S4x1x1 : Shape := ⟨3, ![4, 1, 1]⟩
abbrev S8x16384 : Shape := ⟨2, ![8, 16384]⟩
abbrev S8x1 : Shape := ⟨2, ![8, 1]⟩
abbrev S8 : Shape := ⟨1, ![8]⟩
abbrev S1x1 : Shape := ⟨2, ![1, 1]⟩

abbrev nBuf : Space → Nat
  | .hbm => 139
  | .vmem => 14
  | .smem => 0
  | _ => 0

abbrev hbmTy0_0 (i : Nat) : BufTy := match i % 128 with
  | 0 => ⟨S32x1x1024x1024, .f32⟩
  | 1 => ⟨S32x1x16384x2x2, .i32⟩
  | 2 => ⟨S32x1x16384x2x2, .i32⟩
  | 3 => ⟨S32x1, .i32⟩
  | 4 => ⟨S32x1, .i32⟩
  | 5 => ⟨S32x1x1048576, .f32⟩
  | 6 => ⟨S32x1x16384x1x1, .i32⟩
  | 7 => ⟨S32x1x16384, .i32⟩
  | 8 => ⟨S32x1x16384x1x1, .i32⟩
  | 9 => ⟨S32x1x16384, .i32⟩
  | 10 => ⟨S32x1x16384x1x1, .i32⟩
  | 11 => ⟨S32x1x16384, .i32⟩
  | 12 => ⟨S32x1x16384x1x1, .i32⟩
  | 13 => ⟨S32x1x16384, .i32⟩
  | 14 => ⟨S_, .i32⟩
  | 15 => ⟨S32x1x16384, .i32⟩
  | 16 => ⟨S32x1x16384, .i32⟩
  | 17 => ⟨S32x1x16384, .i32⟩
  | 18 => ⟨S_, .i32⟩
  | 19 => ⟨S32x1x16384, .i32⟩
  | 20 => ⟨S32x1x16384, .i32⟩
  | 21 => ⟨S32x1x16384, .i32⟩
  | 22 => ⟨S_, .i32⟩
  | 23 => ⟨S32x1x16384, .i32⟩
  | 24 => ⟨S32x1x16384, .i1⟩
  | 25 => ⟨S_, .i32⟩
  | 26 => ⟨S32x1x16384, .i32⟩
  | 27 => ⟨S32x1x16384, .i32⟩
  | 28 => ⟨S32x1x16384, .i32⟩
  | 29 => ⟨S32x16384x1, .i32⟩
  | 30 => ⟨S1, .i32⟩
  | 31 => ⟨S_, .i32⟩
  | 32 => ⟨S32x16384x1, .i32⟩
  | 33 => ⟨S32x16384x1, .i1⟩
  | 34 => ⟨S1x1x1, .i32⟩
  | 35 => ⟨S32x16384x1, .i32⟩
  | 36 => ⟨S32x16384x1, .i1⟩
  | 37 => ⟨S32x16384x1, .i1⟩
  | 38 => ⟨S_, .i1⟩
  | 39 => ⟨S32x16384, .i1⟩
  | 40 => ⟨S32x1x16384, .f32⟩
  | 41 => ⟨S32x1x16384, .i1⟩
  | 42 => ⟨S_, .f32⟩
  | 43 => ⟨S32x1x16384, .f32⟩
  | 44 => ⟨S32x1x16384, .f32⟩
  | 45 => ⟨S_, .i32⟩
  | 46 => ⟨S32x1x16384, .i32⟩
  | 47 => ⟨S32x1x16384, .i1⟩
  | 48 => ⟨S_, .i32⟩
  | 49 => ⟨S32x1x16384, .i32⟩
  | 50 => ⟨S32x1x16384, .i32⟩
  | 51 => ⟨S32x1x16384, .i32⟩
  | 52 => ⟨S32x16384x1, .i32⟩
  | 53 => ⟨S1, .i32⟩
  | 54 => ⟨S_, .i32⟩
  | 55 => ⟨S32x16384x1, .i32⟩
  | 56 => ⟨S32x16384x1, .i1⟩
  | 57 => ⟨S1x1x1, .i32⟩
  | 58 => ⟨S32x16384x1, .i32⟩
  | 59 => ⟨S32x16384x1, .i1⟩
  | 60 => ⟨S32x16384x1, .i1⟩
  | 61 => ⟨S_, .i1⟩
  | 62 => ⟨S32x16384, .i1⟩
  | 63 => ⟨S32x1x16384, .f32⟩
  | 64 => ⟨S32x1x16384, .i1⟩
  | 65 => ⟨S_, .f32⟩
  | 66 => ⟨S32x1x16384, .f32⟩
  | 67 => ⟨S32x1x16384, .f32⟩
  | 68 => ⟨S32x16384, .f32⟩
  | 69 => ⟨S32x16384, .f32⟩
  | 70 => ⟨S32x1x16384x1x1, .i32⟩
  | 71 => ⟨S32x1x16384, .i32⟩
  | 72 => ⟨S32x1x16384x1x1, .i32⟩
  | 73 => ⟨S32x1x16384, .i32⟩
  | 74 => ⟨S32x1x16384x1x1, .i32⟩
  | 75 => ⟨S32x1x16384, .i32⟩
  | 76 => ⟨S32x1x16384x1x1, .i32⟩
  | 77 => ⟨S32x1x16384, .i32⟩
  | 78 => ⟨S_, .i32⟩
  | 79 => ⟨S32x1x16384, .i32⟩
  | 80 => ⟨S32x1x16384, .i32⟩
  | 81 => ⟨S32x1x16384, .i32⟩
  | 82 => ⟨S_, .i32⟩
  | 83 => ⟨S32x1x16384, .i32⟩
  | 84 => ⟨S32x1x16384, .i32⟩
  | 85 => ⟨S32x1x16384, .i32⟩
  | 86 => ⟨S_, .i32⟩
  | 87 => ⟨S32x1x16384, .i32⟩
  | 88 => ⟨S32x1x16384, .i1⟩
  | 89 => ⟨S_, .i32⟩
  | 90 => ⟨S32x1x16384, .i32⟩
  | 91 => ⟨S32x1x16384, .i32⟩
  | 92 => ⟨S32x1x16384, .i32⟩
  | 93 => ⟨S32x16384x1, .i32⟩
  | 94 => ⟨S1, .i32⟩
  | 95 => ⟨S_, .i32⟩
  | 96 => ⟨S32x16384x1, .i32⟩
  | 97 => ⟨S32x16384x1, .i1⟩
  | 98 => ⟨S1x1x1, .i32⟩
  | 99 => ⟨S32x16384x1, .i32⟩
  | 100 => ⟨S32x16384x1, .i1⟩
  | 101 => ⟨S32x16384x1, .i1⟩
  | 102 => ⟨S_, .i1⟩
  | 103 => ⟨S32x16384, .i1⟩
  | 104 => ⟨S32x1x16384, .f32⟩
  | 105 => ⟨S32x1x16384, .i1⟩
  | 106 => ⟨S_, .f32⟩
  | 107 => ⟨S32x1x16384, .f32⟩
  | 108 => ⟨S32x1x16384, .f32⟩
  | 109 => ⟨S_, .i32⟩
  | 110 => ⟨S32x1x16384, .i32⟩
  | 111 => ⟨S32x1x16384, .i1⟩
  | 112 => ⟨S_, .i32⟩
  | 113 => ⟨S32x1x16384, .i32⟩
  | 114 => ⟨S32x1x16384, .i32⟩
  | 115 => ⟨S32x1x16384, .i32⟩
  | 116 => ⟨S32x16384x1, .i32⟩
  | 117 => ⟨S1, .i32⟩
  | 118 => ⟨S_, .i32⟩
  | 119 => ⟨S32x16384x1, .i32⟩
  | 120 => ⟨S32x16384x1, .i1⟩
  | 121 => ⟨S1x1x1, .i32⟩
  | 122 => ⟨S32x16384x1, .i32⟩
  | 123 => ⟨S32x16384x1, .i1⟩
  | 124 => ⟨S32x16384x1, .i1⟩
  | 125 => ⟨S_, .i1⟩
  | 126 => ⟨S32x16384, .i1⟩
  | 127 => ⟨S32x1x16384, .f32⟩
  | _ => ⟨S32x1x1024x1024, .f32⟩

abbrev hbmTy0_1 (i : Nat) : BufTy := match i % 128 with
  | 0 => ⟨S32x1x16384, .i1⟩
  | 1 => ⟨S_, .f32⟩
  | 2 => ⟨S32x1x16384, .f32⟩
  | 3 => ⟨S32x1x16384, .f32⟩
  | 4 => ⟨S32x16384, .f32⟩
  | 5 => ⟨S32x16384, .f32⟩
  | 6 => ⟨S4x1x1, .f32⟩
  | 7 => ⟨S_, .f32⟩
  | 8 => ⟨S_, .f32⟩
  | 9 => ⟨S_, .f32⟩
  | 10 => ⟨S_, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | .local _ .vmem, ⟨0, _⟩ => ⟨S8x16384, .f32⟩
  | .local _ .vmem, ⟨1, _⟩ => ⟨S8x16384, .f32⟩
  | .local _ .vmem, ⟨2, _⟩ => ⟨S8x16384, .f32⟩
  | .local _ .vmem, ⟨3, _⟩ => ⟨S8x16384, .f32⟩
  | .local _ .vmem, ⟨4, _⟩ => ⟨S8x1, .i32⟩
  | .local _ .vmem, ⟨5, _⟩ => ⟨S8x1, .i32⟩
  | .local _ .vmem, ⟨6, _⟩ => ⟨S8x16384, .f32⟩
  | .local _ .vmem, ⟨7, _⟩ => ⟨S8x16384, .f32⟩
  | .local _ .vmem, ⟨8, _⟩ => ⟨S8x16384, .f32⟩
  | .local _ .vmem, ⟨9, _⟩ => ⟨S8x16384, .f32⟩
  | .local _ .vmem, ⟨10, _⟩ => ⟨S8x1, .i32⟩
  | .local _ .vmem, ⟨11, _⟩ => ⟨S8x1, .i32⟩
  | .local _ .vmem, ⟨12, _⟩ => ⟨S1x1x1, .f32⟩
  | .local _ .vmem, ⟨13, _⟩ => ⟨S1x1x1, .f32⟩
  | _, _ => ⟨S32x1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_1 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_c_2 : Ref sig .tc := ⟨.hbm, 82, rfl⟩
abbrev main_v30 : Ref sig .tc := ⟨.hbm, 83, rfl⟩
abbrev main_v31 : Ref sig .tc := ⟨.hbm, 84, rfl⟩
abbrev main_v32 : Ref sig .tc := ⟨.hbm, 85, rfl⟩
abbrev main_call2_c : Ref sig .tc := ⟨.hbm, 86, rfl⟩
abbrev main_call2_v0 : Ref sig .tc := ⟨.hbm, 87, rfl⟩
abbrev main_call2_v1 : Ref sig .tc := ⟨.hbm, 88, rfl⟩
abbrev main_call2_c_0 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_call2_v5 : Ref sig .tc := ⟨.hbm, 93, rfl⟩
abbrev main_call2_c_1 : Ref sig .tc := ⟨.hbm, 94, rfl⟩
abbrev main_call2_c_2 : Ref sig .tc := ⟨.hbm, 95, rfl⟩
abbrev main_call2_v6 : Ref sig .tc := ⟨.hbm, 96, rfl⟩
abbrev main_call2_v7 : Ref sig .tc := ⟨.hbm, 97, rfl⟩
abbrev main_call2_v8 : Ref sig .tc := ⟨.hbm, 98, rfl⟩
abbrev main_call2_v9 : Ref sig .tc := ⟨.hbm, 99, rfl⟩
abbrev main_call2_v10 : Ref sig .tc := ⟨.hbm, 100, rfl⟩
abbrev main_call2_v11 : Ref sig .tc := ⟨.hbm, 101, rfl⟩
abbrev main_call2_c_3 : Ref sig .tc := ⟨.hbm, 102, rfl⟩
abbrev main_call2_v12 : Ref sig .tc := ⟨.hbm, 103, rfl⟩
abbrev main_call2_v13 : Ref sig .tc := ⟨.hbm, 104, rfl⟩
abbrev main_call2_v14 : Ref sig .tc := ⟨.hbm, 105, rfl⟩
abbrev main_call2_cst : Ref sig .tc := ⟨.hbm, 106, rfl⟩
abbrev main_call2_v15 : Ref sig .tc := ⟨.hbm, 107, rfl⟩
abbrev main_v33 : Ref sig .tc := ⟨.hbm, 108, rfl⟩
abbrev main_call3_c : Ref sig .tc := ⟨.hbm, 109, rfl⟩
abbrev main_call3_v0 : Ref sig .tc := ⟨.hbm, 110, rfl⟩
abbrev main_call3_v1 : Ref sig .tc := ⟨.hbm, 111, rfl⟩
abbrev main_call3_c_0 : Ref sig .tc := ⟨.hbm, 112, rfl⟩
abbrev main_call3_v2 : Ref sig .tc := ⟨.hbm, 113, rfl⟩
abbrev main_call3_v3 : Ref sig .tc := ⟨.hbm, 114, rfl⟩
abbrev main_call3_v4 : Ref sig .tc := ⟨.hbm, 115, rfl⟩
abbrev main_call3_v5 : Ref sig .tc := ⟨.hbm, 116, rfl⟩
abbrev main_call3_c_1 : Ref sig .tc := ⟨.hbm, 117, rfl⟩
abbrev main_call3_c_2 : Ref sig .tc := ⟨.hbm, 118, rfl⟩
abbrev main_call3_v6 : Ref sig .tc := ⟨.hbm, 119, rfl⟩
abbrev main_call3_v7 : Ref sig .tc := ⟨.hbm, 120, rfl⟩
abbrev main_call3_v8 : Ref sig .tc := ⟨.hbm, 121, rfl⟩
abbrev main_call3_v9 : Ref sig .tc := ⟨.hbm, 122, rfl⟩
abbrev main_call3_v10 : Ref sig .tc := ⟨.hbm, 123, rfl⟩
abbrev main_call3_v11 : Ref sig .tc := ⟨.hbm, 124, rfl⟩
abbrev main_call3_c_3 : Ref sig .tc := ⟨.hbm, 125, rfl⟩
abbrev main_call3_v12 : Ref sig .tc := ⟨.hbm, 126, rfl⟩
abbrev main_call3_v13 : Ref sig .tc := ⟨.hbm, 127, rfl⟩
abbrev main_call3_v14 : Ref sig .tc := ⟨.hbm, 128, rfl⟩
abbrev main_call3_cst : Ref sig .tc := ⟨.hbm, 129, rfl⟩
abbrev main_call3_v15 : Ref sig .tc := ⟨.hbm, 130, rfl⟩
abbrev main_v34 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_cst : Ref sig .tc := ⟨.hbm, 135, rfl⟩
abbrev main_v38 : Ref sig .tc := ⟨.hbm, 136, rfl⟩
abbrev main_cst_3 : Ref sig .tc := ⟨.hbm, 137, rfl⟩
abbrev main_v39 : Ref sig .tc := ⟨.hbm, 138, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S32x1x1024x1024_S32x1x1048576 : S32x1x1024x1024.ShapeCasts S32x1x1048576
  slices_S32x1x16384x2x2_S32x1x16384x1x1_0_0_0_0_0 : S32x1x16384x2x2.Slices ![0, 0, 0, 0, 0] S32x1x16384x1x1
  shapeCasts_S32x1x16384x1x1_S32x1x16384 : S32x1x16384x1x1.ShapeCasts S32x1x16384
  slices_S32x1x16384x2x2_S32x1x16384x1x1_0_0_0_0_1 : S32x1x16384x2x2.Slices ![0, 0, 0, 0, 1] S32x1x16384x1x1
  slices_S32x1x16384x2x2_S32x1x16384x1x1_0_0_0_1_0 : S32x1x16384x2x2.Slices ![0, 0, 0, 1, 0] S32x1x16384x1x1
  slices_S32x1x16384x2x2_S32x1x16384x1x1_0_0_0_1_1 : S32x1x16384x2x2.Slices ![0, 0, 0, 1, 1] S32x1x16384x1x1
  bcast_S_S32x1x16384 : S_.BroadcastsInDim S32x1x16384 (![] : Fin 0 → Fin S32x1x16384.rank)
  shapeCasts_S32x1x16384_S32x16384x1 : S32x1x16384.ShapeCasts S32x16384x1
  bcast_S_S32x16384x1 : S_.BroadcastsInDim S32x16384x1 (![] : Fin 0 → Fin S32x16384x1.rank)
  bcast_S1_S1x1x1_2 : S1.BroadcastsInDim S1x1x1 (![2] : Fin 1 → Fin S1x1x1.rank)
  bcast_S1x1x1_S32x16384x1_0_1_2 : S1x1x1.BroadcastsInDim S32x16384x1 (![0, 1, 2] : Fin 3 → Fin S32x16384x1.rank)
  reducesTo_S32x16384x1_S32x16384_d2 : S32x16384x1.ReducesTo [2] S32x16384
  h_S_ : 0 < S_.numel
  bcast_S32x16384_S32x1x16384_0_2 : S32x16384.BroadcastsInDim S32x1x16384 (![0, 2] : Fin 2 → Fin S32x1x16384.rank)
  shapeCasts_S32x1x16384_S32x16384 : S32x1x16384.ShapeCasts S32x16384
  inb_S8x16384_S8x16384_0_0 : ∀ a, (![0, 0] : Fin 2 → Nat) a + S8x16384.size a ≤ S8x16384.size a
  h_S8x16384 : 0 < S8x16384.numel
  shapeCasts_S8x16384_S8x16384 : S8x16384.ShapeCasts S8x16384
  iota_S8x16384_d1_w32 : S8x16384.Iotas .tc 32 [1]
  inb_S8x1_S8x1_0_0 : ∀ a, (![0, 0] : Fin 2 → Nat) a + S8x1.size a ≤ S8x1.size a
  h_S8x1 : 0 < S8x1.numel
  broadcasts_S8x1_S8x16384 : S8x1.Broadcasts S8x16384
  reduces_S8x16384_S8 : S8x16384.Reduces [1] S8
  shapeCasts_S8_S8x1 : S8.ShapeCasts S8x1
  reduces_S8x1_S1 : S8x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  gather_S32x1x1048576_S32x16384x1_S32x1x16384_1_2_0_0_2_2_111_wf : GatherDims.WF S32x1x1048576 S32x16384x1 S32x1x16384 [1] [2] [0] [2] [0] 2 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x16384.size a ≤ S32x16384.size a
  hwx0_0 : ∀ i : grid0.Coords, EltTy.bits .f32 = 32 ∨ (Rect.block (s := S32x16384) S8x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x16384.size a ≤ S32x16384.size a
  hwx0_1 : ∀ i : grid0.Coords, EltTy.bits .f32 = 32 ∨ (Rect.block (s := S32x16384) S8x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S32x1.size a
  hwx0_2 : ∀ i : grid0.Coords, EltTy.bits .i32 = 32 ∨ (Rect.block (s := S32x1) S8x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16384.size a ≤ S32x16384.size a
  hwx0_3 : ∀ i : grid0.Coords, EltTy.bits .f32 = 32 ∨ (Rect.block (s := S32x16384) S8x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16384.size a ≤ S32x16384.size a
  hwx0_4 : ∀ i : grid0.Coords, EltTy.bits .f32 = 32 ∨ (Rect.block (s := S32x16384) S8x16384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1.size a ≤ S32x1.size a
  hwx0_5 : ∀ i : grid0.Coords, EltTy.bits .i32 = 32 ∨ (Rect.block (s := S32x1) S8x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S4x1x1.size a
  hwx0_6 : ∀ i : grid0.Coords, EltTy.bits .f32 = 32 ∨ (Rect.block (s := S4x1x1) S1x1x1.size (cc0_transform_6 i) (hinb0_6 i)).WholeWords (EltTy.packing .f32)

variable [Facts₀]

def gather_S32x1x1048576_S32x16384x1_S32x1x16384_1_2_0_0_2_2_111 : GatherDims S32x1x1048576 S32x16384x1 S32x1x16384 where
  offsetDims := [1]
  collapsedSliceDims := [2]
  operandBatchingDims := [0]
  startIndicesBatchingDims := [0]
  startIndexMap := [2]
  indexVectorDim := 2
  sliceSizes := ![1, 1, 1]
  wf := gather_S32x1x1048576_S32x16384x1_S32x1x16384_1_2_0_0_2_2_111_wf

abbrev win0_0 : Pipeline.Window sig grid0 :=
  Pipeline.Window.ofSpec (Memref.whole main_v17) S8x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S8x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v35) S8x16384.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v36) S8x16384.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S8x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37) S1x1x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S32x1x1024x1024 : Shape := ⟨4, ![32, 1, 1024, 1024]⟩
abbrev S32x1x16384x2x2 : Shape := ⟨5, ![32, 1, 16384, 2, 2]⟩
abbrev S32x1 : Shape := ⟨2, ![32, 1]⟩
abbrev S32x1x1048576 : Shape := ⟨3, ![32, 1, 1048576]⟩
abbrev S32x1x16384x1x1 : Shape := ⟨5, ![32, 1, 16384, 1, 1]⟩
abbrev S32x1x16384 : Shape := ⟨3, ![32, 1, 16384]⟩
abbrev S_ : Shape := ⟨0, ![]⟩
abbrev S32x16384x1 : Shape := ⟨3, ![32, 16384, 1]⟩
abbrev S1 : Shape := ⟨1, ![1]⟩
abbrev S1x1x1 : Shape := ⟨3, ![1, 1, 1]⟩
abbrev S32x16384 : Shape := ⟨2, ![32, 16384]⟩
abbrev S16384 : Shape := ⟨1, ![16384]⟩
abbrev S1x1x16384 : Shape := ⟨3, ![1, 1, 16384]⟩
abbrev S32x1x1 : Shape := ⟨3, ![32, 1, 1]⟩
abbrev S32 : Shape := ⟨1, ![32]⟩

abbrev nBuf : Space → Nat
  | .hbm => 194
  | .vmem => 0
  | .smem => 0
  | _ => 0

abbrev hbmTy0_0 (i : Nat) : BufTy := match i % 128 with
  | 0 => ⟨S32x1x1024x1024, .f32⟩
  | 1 => ⟨S32x1x16384x2x2, .i32⟩
  | 2 => ⟨S32x1x16384x2x2, .i32⟩
  | 3 => ⟨S32x1, .i32⟩
  | 4 => ⟨S32x1, .i32⟩
  | 5 => ⟨S32x1x1048576, .f32⟩
  | 6 => ⟨S32x1x16384x1x1, .i32⟩
  | 7 => ⟨S32x1x16384, .i32⟩
  | 8 => ⟨S_, .i32⟩
  | 9 => ⟨S32x1x16384, .i32⟩
  | 10 => ⟨S32x1x16384, .i32⟩
  | 11 => ⟨S32x1x16384x1x1, .i32⟩
  | 12 => ⟨S32x1x16384, .i32⟩
  | 13 => ⟨S32x1x16384, .i32⟩
  | 14 => ⟨S32x1x16384x1x1, .i32⟩
  | 15 => ⟨S32x1x16384, .i32⟩
  | 16 => ⟨S_, .i32⟩
  | 17 => ⟨S32x1x16384, .i32⟩
  | 18 => ⟨S32x1x16384, .i32⟩
  | 19 => ⟨S32x1x16384x1x1, .i32⟩
  | 20 => ⟨S32x1x16384, .i32⟩
  | 21 => ⟨S32x1x16384, .i32⟩
  | 22 => ⟨S_, .i32⟩
  | 23 => ⟨S32x1x16384, .i32⟩
  | 24 => ⟨S32x1x16384, .i1⟩
  | 25 => ⟨S_, .i32⟩
  | 26 => ⟨S32x1x16384, .i32⟩
  | 27 => ⟨S32x1x16384, .i32⟩
  | 28 => ⟨S32x1x16384, .i32⟩
  | 29 => ⟨S32x16384x1, .i32⟩
  | 30 => ⟨S1, .i32⟩
  | 31 => ⟨S_, .i32⟩
  | 32 => ⟨S32x16384x1, .i32⟩
  | 33 => ⟨S32x16384x1, .i1⟩
  | 34 => ⟨S1x1x1, .i32⟩
  | 35 => ⟨S32x16384x1, .i32⟩
  | 36 => ⟨S32x16384x1, .i1⟩
  | 37 => ⟨S32x16384x1, .i1⟩
  | 38 => ⟨S_, .i1⟩
  | 39 => ⟨S32x16384, .i1⟩
  | 40 => ⟨S32x1x16384, .f32⟩
  | 41 => ⟨S32x1x16384, .i1⟩
  | 42 => ⟨S_, .f32⟩
  | 43 => ⟨S32x1x16384, .f32⟩
  | 44 => ⟨S32x1x16384, .f32⟩
  | 45 => ⟨S_, .i32⟩
  | 46 => ⟨S32x1x16384, .i32⟩
  | 47 => ⟨S32x1x16384, .i1⟩
  | 48 => ⟨S_, .i32⟩
  | 49 => ⟨S32x1x16384, .i32⟩
  | 50 => ⟨S32x1x16384, .i32⟩
  | 51 => ⟨S32x1x16384, .i32⟩
  | 52 => ⟨S32x16384x1, .i32⟩
  | 53 => ⟨S1, .i32⟩
  | 54 => ⟨S_, .i32⟩
  | 55 => ⟨S32x16384x1, .i32⟩
  | 56 => ⟨S32x16384x1, .i1⟩
  | 57 => ⟨S1x1x1, .i32⟩
  | 58 => ⟨S32x16384x1, .i32⟩
  | 59 => ⟨S32x16384x1, .i1⟩
  | 60 => ⟨S32x16384x1, .i1⟩
  | 61 => ⟨S_, .i1⟩
  | 62 => ⟨S32x16384, .i1⟩
  | 63 => ⟨S32x1x16384, .f32⟩
  | 64 => ⟨S32x1x16384, .i1⟩
  | 65 => ⟨S_, .f32⟩
  | 66 => ⟨S32x1x16384, .f32⟩
  | 67 => ⟨S32x1x16384, .f32⟩
  | 68 => ⟨S32x1x16384, .f32⟩
  | 69 => ⟨S32x1x16384, .f32⟩
  | 70 => ⟨S16384, .i32⟩
  | 71 => ⟨S1x1x16384, .i32⟩
  | 72 => ⟨S32x1x1, .i32⟩
  | 73 => ⟨S32x1x16384, .i32⟩
  | 74 => ⟨S32x1x16384, .i32⟩
  | 75 => ⟨S32x1x16384, .i1⟩
  | 76 => ⟨S_, .f32⟩
  | 77 => ⟨S32x1x16384, .f32⟩
  | 78 => ⟨S32x1x16384, .f32⟩
  | 79 => ⟨S_, .f32⟩
  | 80 => ⟨S32x1x16384, .f32⟩
  | 81 => ⟨S32x1x16384, .f32⟩
  | 82 => ⟨S_, .f32⟩
  | 83 => ⟨S32x1x16384, .f32⟩
  | 84 => ⟨S32x1x16384, .f32⟩
  | 85 => ⟨S32x1x16384, .f32⟩
  | 86 => ⟨S_, .f32⟩
  | 87 => ⟨S32x1, .f32⟩
  | 88 => ⟨S_, .f32⟩
  | 89 => ⟨S32, .f32⟩
  | 90 => ⟨S_, .f32⟩
  | 91 => ⟨S32, .f32⟩
  | 92 => ⟨S32, .f32⟩
  | 93 => ⟨S_, .f32⟩
  | 94 => ⟨S_, .f32⟩
  | 95 => ⟨S_, .f32⟩
  | 96 => ⟨S_, .f32⟩
  | 97 => ⟨S32x1x1048576, .f32⟩
  | 98 => ⟨S32x1x16384x1x1, .i32⟩
  | 99 => ⟨S32x1x16384, .i32⟩
  | 100 => ⟨S_, .i32⟩
  | 101 => ⟨S32x1x16384, .i32⟩
  | 102 => ⟨S32x1x16384, .i32⟩
  | 103 => ⟨S32x1x16384x1x1, .i32⟩
  | 104 => ⟨S32x1x16384, .i32⟩
  | 105 => ⟨S32x1x16384, .i32⟩
  | 106 => ⟨S32x1x16384x1x1, .i32⟩
  | 107 => ⟨S32x1x16384, .i32⟩
  | 108 => ⟨S_, .i32⟩
  | 109 => ⟨S32x1x16384, .i32⟩
  | 110 => ⟨S32x1x16384, .i32⟩
  | 111 => ⟨S32x1x16384x1x1, .i32⟩
  | 112 => ⟨S32x1x16384, .i32⟩
  | 113 => ⟨S32x1x16384, .i32⟩
  | 114 => ⟨S_, .i32⟩
  | 115 => ⟨S32x1x16384, .i32⟩
  | 116 => ⟨S32x1x16384, .i1⟩
  | 117 => ⟨S_, .i32⟩
  | 118 => ⟨S32x1x16384, .i32⟩
  | 119 => ⟨S32x1x16384, .i32⟩
  | 120 => ⟨S32x1x16384, .i32⟩
  | 121 => ⟨S32x16384x1, .i32⟩
  | 122 => ⟨S1, .i32⟩
  | 123 => ⟨S_, .i32⟩
  | 124 => ⟨S32x16384x1, .i32⟩
  | 125 => ⟨S32x16384x1, .i1⟩
  | 126 => ⟨S1x1x1, .i32⟩
  | 127 => ⟨S32x16384x1, .i32⟩
  | _ => ⟨S32x1x1024x1024, .f32⟩

abbrev hbmTy0_1 (i : Nat) : BufTy := match i % 128 with
  | 0 => ⟨S32x16384x1, .i1⟩
  | 1 => ⟨S32x16384x1, .i1⟩
  | 2 => ⟨S_, .i1⟩
  | 3 => ⟨S32x16384, .i1⟩
  | 4 => ⟨S32x1x16384, .f32⟩
  | 5 => ⟨S32x1x16384, .i1⟩
  | 6 => ⟨S_, .f32⟩
  | 7 => ⟨S32x1x16384, .f32⟩
  | 8 => ⟨S32x1x16384, .f32⟩
  | 9 => ⟨S_, .i32⟩
  | 10 => ⟨S32x1x16384, .i32⟩
  | 11 => ⟨S32x1x16384, .i1⟩
  | 12 => ⟨S_, .i32⟩
  | 13 => ⟨S32x1x16384, .i32⟩
  | 14 => ⟨S32x1x16384, .i32⟩
  | 15 => ⟨S32x1x16384, .i32⟩
  | 16 => ⟨S32x16384x1, .i32⟩
  | 17 => ⟨S1, .i32⟩
  | 18 => ⟨S_, .i32⟩
  | 19 => ⟨S32x16384x1, .i32⟩
  | 20 => ⟨S32x16384x1, .i1⟩
  | 21 => ⟨S1x1x1, .i32⟩
  | 22 => ⟨S32x16384x1, .i32⟩
  | 23 => ⟨S32x16384x1, .i1⟩
  | 24 => ⟨S32x16384x1, .i1⟩
  | 25 => ⟨S_, .i1⟩
  | 26 => ⟨S32x16384, .i1⟩
  | 27 => ⟨S32x1x16384, .f32⟩
  | 28 => ⟨S32x1x16384, .i1⟩
  | 29 => ⟨S_, .f32⟩
  | 30 => ⟨S32x1x16384, .f32⟩
  | 31 => ⟨S32x1x16384, .f32⟩
  | 32 => ⟨S32x1x16384, .f32⟩
  | 33 => ⟨S32x1x16384, .f32⟩
  | 34 => ⟨S16384, .i32⟩
  | 35 => ⟨S1x1x16384, .i32⟩
  | 36 => ⟨S32x1x1, .i32⟩
  | 37 => ⟨S32x1x16384, .i32⟩
  | 38 => ⟨S32x1x16384, .i32⟩
  | 39 => ⟨S32x1x16384, .i1⟩
  | 40 => ⟨S_, .f32⟩
  | 41 => ⟨S32x1x16384, .f32⟩
  | 42 => ⟨S32x1x16384, .f32⟩
  | 43 => ⟨S_, .f32⟩
  | 44 => ⟨S32x1x16384, .f32⟩
  | 45 => ⟨S32x1x16384, .f32⟩
  | 46 => ⟨S_, .f32⟩
  | 47 => ⟨S32x1x16384, .f32⟩
  | 48 => ⟨S32x1x16384, .f32⟩
  | 49 => ⟨S32x1x16384, .f32⟩
  | 50 => ⟨S_, .f32⟩
  | 51 => ⟨S32x1, .f32⟩
  | 52 => ⟨S_, .f32⟩
  | 53 => ⟨S32, .f32⟩
  | 54 => ⟨S_, .f32⟩
  | 55 => ⟨S32, .f32⟩
  | 56 => ⟨S32, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | _ => ⟨S32x1x1024x1024, .f32⟩

abbrev hbmTy (i : Nat) : BufTy := match i / 128 with
  | 0 => hbmTy0_0 i
  | 1 => hbmTy0_1 i
  | _ => ⟨S32x1x1024x1024, .f32⟩

abbrev bufTy : (tb : Table) → Fin (tcTables nBuf tb) → BufTy
  | .hbm, ⟨i, _⟩ => hbmTy i
  | _, _ => ⟨S32x1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_c : Ref sig .tc := ⟨.hbm, 22, rfl⟩
abbrev main_call0_v0 : Ref sig .tc := ⟨.hbm, 23, rfl⟩
abbrev main_call0_v1 : Ref sig .tc := ⟨.hbm, 24, rfl⟩
abbrev main_call0_c_0 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_c_1 : Ref sig .tc := ⟨.hbm, 30, rfl⟩
abbrev main_call0_c_2 : Ref sig .tc := ⟨.hbm, 31, rfl⟩
abbrev main_call0_v6 : Ref sig .tc := ⟨.hbm, 32, rfl⟩
abbrev main_call0_v7 : Ref sig .tc := ⟨.hbm, 33, rfl⟩
abbrev main_call0_v8 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_c_3 : Ref sig .tc := ⟨.hbm, 38, rfl⟩
abbrev main_call0_v12 : Ref sig .tc := ⟨.hbm, 39, rfl⟩
abbrev main_call0_v13 : Ref sig .tc := ⟨.hbm, 40, rfl⟩
abbrev main_call0_v14 : Ref sig .tc := ⟨.hbm, 41, rfl⟩
abbrev main_call0_cst : Ref sig .tc := ⟨.hbm, 42, rfl⟩
abbrev main_call0_v15 : Ref sig .tc := ⟨.hbm, 43, rfl⟩
abbrev main_v15 : Ref sig .tc := ⟨.hbm, 44, rfl⟩
abbrev main_call1_c : Ref sig .tc := ⟨.hbm, 45, rfl⟩
abbrev main_call1_v0 : Ref sig .tc := ⟨.hbm, 46, rfl⟩
abbrev main_call1_v1 : Ref sig .tc := ⟨.hbm, 47, rfl⟩
abbrev main_call1_c_0 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_call1_v5 : Ref sig .tc := ⟨.hbm, 52, rfl⟩
abbrev main_call1_c_1 : Ref sig .tc := ⟨.hbm, 53, rfl⟩
abbrev main_call1_c_2 : Ref sig .tc := ⟨.hbm, 54, rfl⟩
abbrev main_call1_v6 : Ref sig .tc := ⟨.hbm, 55, rfl⟩
abbrev main_call1_v7 : Ref sig .tc := ⟨.hbm, 56, rfl⟩
abbrev main_call1_v8 : Ref sig .tc := ⟨.hbm, 57, rfl⟩
abbrev main_call1_v9 : Ref sig .tc := ⟨.hbm, 58, rfl⟩
abbrev main_call1_v10 : Ref sig .tc := ⟨.hbm, 59, rfl⟩
abbrev main_call1_v11 : Ref sig .tc := ⟨.hbm, 60, rfl⟩
abbrev main_call1_c_3 : Ref sig .tc := ⟨.hbm, 61, rfl⟩
abbrev main_call1_v12 : Ref sig .tc := ⟨.hbm, 62, rfl⟩
abbrev main_call1_v13 : Ref sig .tc := ⟨.hbm, 63, rfl⟩
abbrev main_call1_v14 : Ref sig .tc := ⟨.hbm, 64, rfl⟩
abbrev main_call1_cst : Ref sig .tc := ⟨.hbm, 65, rfl⟩
abbrev main_call1_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_cst : Ref sig .tc := ⟨.hbm, 76, rfl⟩
abbrev main_v25 : Ref sig .tc := ⟨.hbm, 77, rfl⟩
abbrev main_v26 : Ref sig .tc := ⟨.hbm, 78, rfl⟩
abbrev main_cst_1 : Ref sig .tc := ⟨.hbm, 79, rfl⟩
abbrev main_v27 : Ref sig .tc := ⟨.hbm, 80, rfl⟩
abbrev main_v28 : Ref sig .tc := ⟨.hbm, 81, rfl⟩
abbrev main_cst_2 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_3 : Ref sig .tc := ⟨.hbm, 86, rfl⟩
abbrev main_v32 : Ref sig .tc := ⟨.hbm, 87, rfl⟩
abbrev main_cst_4 : Ref sig .tc := ⟨.hbm, 88, rfl⟩
abbrev main_v33 : Ref sig .tc := ⟨.hbm, 89, rfl⟩
abbrev main_cst_5 : Ref sig .tc := ⟨.hbm, 90, rfl⟩
abbrev main_v34 : Ref sig .tc := ⟨.hbm, 91, rfl⟩
abbrev main_v35 : Ref sig .tc := ⟨.hbm, 92, rfl⟩
abbrev main_cst_6 : Ref sig .tc := ⟨.hbm, 93, rfl⟩
abbrev main_v36 : Ref sig .tc := ⟨.hbm, 94, rfl⟩
abbrev main_cst_7 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_c_8 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_c_9 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v53 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v54 : Ref sig .tc := ⟨.hbm, 159, rfl⟩
abbrev main_v55 : Ref sig .tc := ⟨.hbm, 160, rfl⟩
abbrev main_v56 : Ref sig .tc := ⟨.hbm, 161, rfl⟩
abbrev main_v57 : Ref sig .tc := ⟨.hbm, 162, rfl⟩
abbrev main_v58 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_v62 : Ref sig .tc := ⟨.hbm, 167, rfl⟩
abbrev main_cst_10 : Ref sig .tc := ⟨.hbm, 168, rfl⟩
abbrev main_v63 : Ref sig .tc := ⟨.hbm, 169, rfl⟩
abbrev main_v64 : Ref sig .tc := ⟨.hbm, 170, rfl⟩
abbrev main_cst_11 : Ref sig .tc := ⟨.hbm, 171, rfl⟩
abbrev main_v65 : Ref sig .tc := ⟨.hbm, 172, rfl⟩
abbrev main_v66 : Ref sig .tc := ⟨.hbm, 173, rfl⟩
abbrev main_cst_12 : Ref sig .tc := ⟨.hbm, 174, rfl⟩
abbrev main_v67 : Ref sig .tc := ⟨.hbm, 175, rfl⟩
abbrev main_v68 : Ref sig .tc := ⟨.hbm, 176, rfl⟩
abbrev main_v69 : Ref sig .tc := ⟨.hbm, 177, rfl⟩
abbrev main_cst_13 : Ref sig .tc := ⟨.hbm, 178, rfl⟩
abbrev main_v70 : Ref sig .tc := ⟨.hbm, 179, rfl⟩
abbrev main_cst_14 : Ref sig .tc := ⟨.hbm, 180, rfl⟩
abbrev main_v71 : Ref sig .tc := ⟨.hbm, 181, rfl⟩
abbrev main_cst_15 : Ref sig .tc := ⟨.hbm, 182, rfl⟩
abbrev main_v72 : Ref sig .tc := ⟨.hbm, 183, rfl⟩
abbrev main_v73 : Ref sig .tc := ⟨.hbm, 184, rfl⟩
abbrev main_cst_16 : Ref sig .tc := ⟨.hbm, 185, rfl⟩
abbrev main_v74 : Ref sig .tc := ⟨.hbm, 186, rfl⟩
abbrev main_cst_17 : Ref sig .tc := ⟨.hbm, 187, rfl⟩
abbrev main_v75 : Ref sig .tc := ⟨.hbm, 188, rfl⟩
abbrev main_cst_18 : Ref sig .tc := ⟨.hbm, 189, rfl⟩
abbrev main_v76 : Ref sig .tc := ⟨.hbm, 190, rfl⟩
abbrev main_cst_19 : Ref sig .tc := ⟨.hbm, 191, rfl⟩
abbrev main_v77 : Ref sig .tc := ⟨.hbm, 192, rfl⟩
abbrev main_v78 : Ref sig .tc := ⟨.hbm, 193, rfl⟩

abbrev nD : Nat := 1
abbrev τ : Topo := Topo.v7x

variable {F : FTy → Type} [FloatOps F]

class Facts₀ : Prop where
  shapeCasts_S32x1x1024x1024_S32x1x1048576 : S32x1x1024x1024.ShapeCasts S32x1x1048576
  slices_S32x1x16384x2x2_S32x1x16384x1x1_0_0_0_0_0 : S32x1x16384x2x2.Slices ![0, 0, 0, 0, 0] S32x1x16384x1x1
  shapeCasts_S32x1x16384x1x1_S32x1x16384 : S32x1x16384x1x1.ShapeCasts S32x1x16384
  bcast_S_S32x1x16384 : S_.BroadcastsInDim S32x1x16384 (![] : Fin 0 → Fin S32x1x16384.rank)
  slices_S32x1x16384x2x2_S32x1x16384x1x1_0_0_0_0_1 : S32x1x16384x2x2.Slices ![0, 0, 0, 0, 1] S32x1x16384x1x1
  slices_S32x1x16384x2x2_S32x1x16384x1x1_0_0_0_1_0 : S32x1x16384x2x2.Slices ![0, 0, 0, 1, 0] S32x1x16384x1x1
  slices_S32x1x16384x2x2_S32x1x16384x1x1_0_0_0_1_1 : S32x1x16384x2x2.Slices ![0, 0, 0, 1, 1] S32x1x16384x1x1
  shapeCasts_S32x1x16384_S32x16384x1 : S32x1x16384.ShapeCasts S32x16384x1
  bcast_S_S32x16384x1 : S_.BroadcastsInDim S32x16384x1 (![] : Fin 0 → Fin S32x16384x1.rank)
  bcast_S1_S1x1x1_2 : S1.BroadcastsInDim S1x1x1 (![2] : Fin 1 → Fin S1x1x1.rank)
  bcast_S1x1x1_S32x16384x1_0_1_2 : S1x1x1.BroadcastsInDim S32x16384x1 (![0, 1, 2] : Fin 3 → Fin S32x16384x1.rank)
  reducesTo_S32x16384x1_S32x16384_d2 : S32x16384x1.ReducesTo [2] S32x16384
  h_S_ : 0 < S_.numel
  bcast_S32x16384_S32x1x16384_0_2 : S32x16384.BroadcastsInDim S32x1x16384 (![0, 2] : Fin 2 → Fin S32x1x16384.rank)
  bcast_S16384_S1x1x16384_2 : S16384.BroadcastsInDim S1x1x16384 (![2] : Fin 1 → Fin S1x1x16384.rank)
  bcast_S32x1_S32x1x1_0_1 : S32x1.BroadcastsInDim S32x1x1 (![0, 1] : Fin 2 → Fin S32x1x1.rank)
  bcast_S1x1x16384_S32x1x16384_0_1_2 : S1x1x16384.BroadcastsInDim S32x1x16384 (![0, 1, 2] : Fin 3 → Fin S32x1x16384.rank)
  bcast_S32x1x1_S32x1x16384_0_1_2 : S32x1x1.BroadcastsInDim S32x1x16384 (![0, 1, 2] : Fin 3 → Fin S32x1x16384.rank)
  reducesTo_S32x1x16384_S32x1_d2 : S32x1x16384.ReducesTo [2] S32x1
  reducesTo_S32x1_S32_d1 : S32x1.ReducesTo [1] S32
  bcast_S_S32 : S_.BroadcastsInDim S32 (![] : Fin 0 → Fin S32.rank)
  reducesTo_S32_S_d0 : S32.ReducesTo [0] S_
  gather_S32x1x1048576_S32x16384x1_S32x1x16384_1_2_0_0_2_2_111_wf : GatherDims.WF S32x1x1048576 S32x16384x1 S32x1x16384 [1] [2] [0] [2] [0] 2 ![1, 1, 1]

variable [Facts₀]

def gather_S32x1x1048576_S32x16384x1_S32x1x16384_1_2_0_0_2_2_111 : GatherDims S32x1x1048576 S32x16384x1 S32x1x16384 where
  offsetDims := [1]
  collapsedSliceDims := [2]
  operandBatchingDims := [0]
  startIndicesBatchingDims := [0]
  startIndexMap := [2]
  indexVectorDim := 2
  sliceSizes := ![1, 1, 1]
  wf := gather_S32x1x1048576_S32x16384x1_S32x1x16384_1_2_0_0_2_2_111_wf

class Facts : Prop extends Facts₀ where

variable [Facts]
-- ==== Proof.RefValue.lean ====
/-
  The reference's result as the last of its stages.

  The reference is a straight line of host operations; after it every buffer holds the operations' results folded
  over the launch contents.  Read at the result buffer, that fold is the composition of the operations — the stage
  functions one after the other — applied to the five argument arrays; the argument buffers themselves are written by
  no operation.
-/
import proofs.«176363_j40295383171311_2_alg».proof.Proof.RefRun
import proofs.«176363_j40295383171311_2_alg».proof.Proof.RefRead

noncomputable section

namespace Cert.ReferenceIdeal.RefValue

open Idealize.ShloMosaic Idealize.ShloMosaic.TcCoe Idealize.SL.Sem Idealize.ShloMosaic.StableHlo
open Cert.ReferenceIdeal Cert.ReferenceIdeal.Gen Cert.ReferenceIdeal.Value

variable (m : (ℓ : Loc nD τ sig) → Buf (Elt Ideal) ℓ)

set_option maxRecDepth 65536 in
set_option maxHeartbeats 80000000 in
/-- The result buffer after the operations is the last stage of the argument arrays. -/
theorem result_eq (c : Dev nD) :
    after (ops (F := Ideal)) (launchContents m c) (Proc.devRef .tc main_v78)
      = Cert.ReferenceIdeal.Read.val_main_v78 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  after_results_simp
  simp only [TRef.toBuf, TRef.ofBuf, cast_eq]
  rfl

set_option maxRecDepth 65536 in
set_option maxHeartbeats 80000000 in
/-- No operation writes an argument buffer. -/
theorem args_kept (c : Dev nD) :
    after (ops (F := Ideal)) (launchContents m c) (Proc.devRef .tc main_arg0) = m ((c.tc : Thread nD τ).loc main_arg0)
    ∧ after (ops (F := Ideal)) (launchContents m c) (Proc.devRef .tc main_arg1) = m ((c.tc : Thread nD τ).loc main_arg1)
    ∧ after (ops (F := Ideal)) (launchContents m c) (Proc.devRef .tc main_arg2) = m ((c.tc : Thread nD τ).loc main_arg2)
    ∧ after (ops (F := Ideal)) (launchContents m c) (Proc.devRef .tc main_arg3) = m ((c.tc : Thread nD τ).loc main_arg3)
    ∧ after (ops (F := Ideal)) (launchContents m c) (Proc.devRef .tc main_arg4) = m ((c.tc : Thread nD τ).loc main_arg4) := by
  refine ⟨?_, ?_, ?_, ?_, ?_⟩ <;> (after_results_simp <;> rfl)

/-- The reference's run: it ends with the result buffer at the last stage of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v78)
        = Cert.ReferenceIdeal.Read.val_main_v78 (F := Ideal) (m ((c.tc : Thread nD τ).loc main_arg0))
            (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨(h c main_v78).trans (result_eq m c),
        (h c main_arg0).trans (args_kept m c).1,
        (h c main_arg1).trans (args_kept m c).2.1,
        (h c main_arg2).trans (args_kept m c).2.2.1,
        (h c main_arg3).trans (args_kept m c).2.2.2.1,
        (h c main_arg4).trans (args_kept m c).2.2.2.2⟩)
    (run_after (F := Ideal) m ρ)

end Cert.ReferenceIdeal.RefValue

end
-- ==== Proof.LibNormSum.lean ====
/-
  Scaling a finite sum on the extended reals.

  Multiplication on the extended reals does not distribute over addition in general (`⊤ + ⊥`), but it does
  when the factor is a nonnegative real. Hence a sum accumulated at a destination and then scaled by the
  destination's factor is the sum of the terms each scaled by the factor of its own destination.
-/
import Idealize.ShloMosaic.PureOps.Ideal

noncomputable section

open scoped BigOperators

namespace Cert.NormSum

open Idealize.ShloMosaic

/-- A nonnegative real factor distributes over a finite sum of extended reals. -/
theorem mul_sum_of_nonneg_real {ι : Type*} (a : EReal) (h0 : 0 ≤ a) (ht : a ≠ ⊤) (s : Finset ι) (f : ι → EReal) :
    a * ∑ i ∈ s, f i = ∑ i ∈ s, a * f i := by
  induction s using Finset.cons_induction with
  | empty => simp
  | cons i s hi ih =>
    rw [Finset.sum_cons, Finset.sum_cons, EReal.left_distrib_of_nonneg_of_ne_top h0 ht, ih]

/-- Scaling the accumulated sum by `a(n)` is accumulating terms scaled by `a` at their own destination,
    when every term that lands on `n` has destination factor `a(n)`. -/
theorem normalized_sum_eq {M : Nat} (an : EReal) (h0 : 0 ≤ an) (ht : an ≠ ⊤) (hit : Fin M → Prop)
    [DecidablePred hit] (h ws wd : Fin M → EReal) (hd : ∀ e, hit e → wd e = an) :
    an * (0 + ∑ e : Fin M, if hit e then h e * ws e else 0)
      = 0 + ∑ e : Fin M, if hit e then h e * (ws e * wd e) else 0 := by
  rw [zero_add, zero_add, mul_sum_of_nonneg_real an h0 ht]
  refine Finset.sum_congr rfl fun e _ => ?_
  by_cases he : hit e
  · rw [if_pos he, if_pos he, hd e he, mul_comm an, mul_assoc]
  · rw [if_neg he, if_neg he, mul_zero]

/-- A finite count, accumulated on the extended reals, is a nonnegative real. -/
theorem count_finset_nonneg_real {ι : Type*} (s : Finset ι) (p : ι → Prop) [DecidablePred p] :
    ∃ r : ℝ, 0 ≤ r ∧ (∑ e ∈ s, if p e then (1 : EReal) else 0) = (r : EReal) := by
  induction s using Finset.cons_induction with
  | empty => exact ⟨0, le_rfl, by simp⟩
  | cons i s hi ih =>
    obtain ⟨r, hr0, hr⟩ := ih
    rw [Finset.sum_cons, hr]
    by_cases hp : p i
    · refine ⟨1 + r, by linarith, ?_⟩
      rw [if_pos hp, EReal.coe_add, EReal.coe_one]
    · refine ⟨r, hr0, ?_⟩
      rw [if_neg hp, zero_add]

/-- The number of indices satisfying `p`, accumulated from zero, is a nonnegative real. -/
theorem count_nonneg_real {M : Nat} (p : Fin M → Prop) [DecidablePred p] :
    ∃ r : ℝ, 0 ≤ r ∧ (0 + ∑ e : Fin M, if p e then (1 : EReal) else 0) = (r : EReal) := by
  rw [zero_add]
  exact count_finset_nonneg_real Finset.univ p

/-- The guarded inverse square root of a nonnegative real is a nonnegative real: zero at zero (the guard
    selects the constant), `1 / √r` at a positive `r`. -/
theorem guarded_rsqrt_nonneg_real (r : ℝ) (hr : 0 ≤ r) :
    ∃ r' : ℝ, 0 ≤ r' ∧
      Scalar.select (Ideal.cmp .ogt (r : EReal) 0) (Ideal.rsqrt (r : EReal)) (0 : EReal) = (r' : EReal) := by
  rcases hr.eq_or_lt with h | h
  · subst h
    refine ⟨0, le_rfl, ?_⟩
    have h0 : Ideal.cmp .ogt ((0 : ℝ) : EReal) 0 ≠ 1 := by
      show BitVec.ofBool (decide ((0 : EReal) < ((0 : ℝ) : EReal))) ≠ 1
      rw [EReal.coe_zero, decide_eq_false (lt_irrefl _)]
      decide
    unfold Scalar.select
    rw [if_neg h0, EReal.coe_zero]
  · refine ⟨(Real.sqrt r)⁻¹, inv_nonneg.2 (Real.sqrt_nonneg r), ?_⟩
    have h1 : Ideal.cmp .ogt (r : EReal) 0 = 1 := by
      show BitVec.ofBool (decide ((0 : EReal) < (r : EReal))) = 1
      rw [decide_eq_true (EReal.coe_pos.2 h)]
      rfl
    unfold Scalar.select
    rw [if_pos h1, Ideal.rsqrt_coe, if_neg (not_lt.2 hr), if_neg h.ne']

end Cert.NormSum

end
-- ==== Proof.WeightedMean.lean ====
/-
  The loss as arithmetic on the extended reals.

  One interval contributes  w · (1 − d²)  when it is among the first betti intervals of its sample and
  w · d²  otherwise, where d = birth − death and w = 1/2.  A sample's sum adds its 16384 intervals; the loss
  of one class is the mean over the 32 samples of these sums, and the result is  w · loss₀ + w · loss₁.

  The same number is reached tile by tile: the 32 samples fall into 4 tiles of 8 consecutive samples, a tile
  contributes  w · (its 8 sums of class 0) + w · (its 8 sums of class 1),  the four contributions are added
  and the total is divided by 32.  The two agree on ALL extended reals: the only laws needed are that addition
  is associative and commutative, and that a nonnegative real factor (w, and 1/32) distributes over a sum —
  which holds on the extended reals even where ⊤ and ⊥ meet.  No finiteness of the data is used.
-/
import Idealize.ShloMosaic.PureOps.Ideal
import Idealize.ShloMosaic.PureOps.Ideal.Laws
import proofs.«176363_j40295383171311_2_alg».proof.Proof.LibNormSum

noncomputable section

open scoped BigOperators

namespace Cert.Loss

open Idealize.ShloMosaic

/-- The weight 1/2, as the float word both programs spell. -/
abbrev w : EReal := Ideal.ofBits .f32 0x3F000000#32

/-- The float word 0.5 denotes the real 1/2. -/
theorem w_eq : Ideal.ofBits .f32 0x3F000000#32 = ((1 / 2 : ℝ) : EReal) := by
  simp [Ideal.ofBits, Ideal.ieee, -EReal.coe_mul]; norm_num

/-- The float word 32.0 denotes the real 32. -/
theorem c32_eq : Ideal.ofBits .f32 0x42000000#32 = ((32 : ℝ) : EReal) := by
  simp [Ideal.ofBits, Ideal.ieee, -EReal.coe_mul]; norm_num

/-- The float word 1.0 denotes the real 1. -/
theorem c1_eq : Ideal.ofBits .f32 0x3F800000#32 = ((1 : ℝ) : EReal) := by
  simp [Ideal.ofBits, Ideal.ieee, -EReal.coe_mul]; norm_num

theorem w_nonneg : (0 : EReal) ≤ w := by
  show (0 : EReal) ≤ Ideal.ofBits .f32 0x3F000000#32
  rw [w_eq]; exact_mod_cast (by norm_num : (0 : ℝ) ≤ 1 / 2)

theorem w_ne_top : w ≠ ⊤ := by
  show Ideal.ofBits .f32 0x3F000000#32 ≠ ⊤
  rw [w_eq]; exact EReal.coe_ne_top _

/-- Dividing by 32 is multiplying by the real 1/32. -/
theorem div32 (x : EReal) : Ideal.div x (Ideal.ofBits .f32 0x42000000#32) = x * ((1 / 32 : ℝ) : EReal) := by
  rw [c32_eq]; exact Ideal.div_coe (by norm_num) x

/-- Dividing by 1 changes nothing. -/
theorem div1 (x : EReal) : Ideal.div x (Ideal.ofBits .f32 0x3F800000#32) = x := by
  rw [c1_eq, Ideal.div_coe (by norm_num : (1 : ℝ) ≠ 0) x]
  norm_num

/-- One interval's contribution: w·(1 − d²) where the mask bit is set, w·d² where it is not, d = x − y. -/
def term (x y : EReal) (g : BitVec 1) : EReal :=
  Scalar.select g (w * (Ideal.ofBits .f32 0x3F800000#32 - (x - y) * (x - y))) (w * ((x - y) * (x - y)))

/-- One sample's sum over its 16384 intervals; interval k counts as one of the first `bt b` when k < bt b as
    signed 32-bit integers. -/
def sampleSum (B D : Fin 32 → Fin 16384 → EReal) (bt : Fin 32 → BitVec 32) (b : Fin 32) : EReal :=
  ∑ k : Fin 16384, term (B b k) (D b k) (IntOp.cmpi .slt (BitVec.ofNat 32 k.val) (bt b))

/-- Sample r of tile t. -/
def row (t : Fin 4) (r : Fin 8) : Fin 32 := ⟨8 * t.val + r.val, by have := t.isLt; have := r.isLt; omega⟩

/-- What tile t contributes: w · (its 8 sums of class 0) + w · (its 8 sums of class 1). -/
def tileOut (A0 A1 : Fin 32 → EReal) (t : Fin 4) : EReal :=
  w * (∑ r : Fin 8, A0 (row t r)) + w * (∑ r : Fin 8, A1 (row t r))

/-- The 4 tiles of 8 samples exhaust the 32 samples, each once. -/
theorem sum_tiles {M : Type*} [AddCommMonoid M] (f : Fin 32 → M) :
    ∑ t : Fin 4, ∑ r : Fin 8, f (row t r) = ∑ b : Fin 32, f b := by
  rw [← Fintype.sum_prod_type' (f := fun t r => f (row t r))]
  refine Fintype.sum_equiv (finProdFinEquiv (m := 4) (n := 8)) _ _ fun x => congrArg f (Fin.ext ?_)
  show 8 * x.1.val + x.2.val = x.2.val + 8 * x.1.val
  omega

/-- The tiled total divided by 32 is w · mean₀ + w · mean₁. -/
theorem tiled_mean (A0 A1 : Fin 32 → EReal) :
    (∑ t : Fin 4, tileOut A0 A1 t) * ((1 / 32 : ℝ) : EReal)
      = w * ((∑ b : Fin 32, A0 b) * ((1 / 32 : ℝ) : EReal)) + w * ((∑ b : Fin 32, A1 b) * ((1 / 32 : ℝ) : EReal)) := by
  have hc0 : (0 : EReal) ≤ ((1 / 32 : ℝ) : EReal) := by exact_mod_cast (by norm_num : (0 : ℝ) ≤ 1 / 32)
  have hct : ((1 / 32 : ℝ) : EReal) ≠ ⊤ := EReal.coe_ne_top _
  unfold tileOut
  rw [Finset.sum_add_distrib, ← Cert.NormSum.mul_sum_of_nonneg_real w w_nonneg w_ne_top,
    ← Cert.NormSum.mul_sum_of_nonneg_real w w_nonneg w_ne_top, sum_tiles A0, sum_tiles A1,
    mul_comm _ ((1 / 32 : ℝ) : EReal), EReal.left_distrib_of_nonneg_of_ne_top hc0 hct,
    mul_comm ((1 / 32 : ℝ) : EReal), mul_comm ((1 / 32 : ℝ) : EReal), mul_assoc, mul_assoc]

end Cert.Loss

end
-- ==== Proof.TileSum.lean ====
/-
  What the kernel body computes from one tile's blocks, on the extended reals.

  The body loads, for each class, an 8 × 16384 block of births, one of deaths and an 8 × 1 column of betti
  numbers.  Entry (r, k) of a class's term array is the interval's contribution (Loss.term) with the mask
  bit  k < betti(r)  (the lane index against the row's betti number, as signed integers).  The lane sum
  over k gives the 8 row sums, the sublane sum adds the 8 rows, and the single stored number is
  w · (class 0's total) + w · (class 1's total).
-/
import proofs.«176363_j40295383171311_2_alg».proof.Proof.Gen.KernelIdeal.Frame
import proofs.«176363_j40295383171311_2_alg».proof.Proof.WeightedMean
import Idealize.ShloMosaic.Lib.ValueIdx
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.Loss

/-- Entry (r, k) of a class's term array, from the class's three loaded blocks. -/
def entry (x y : Vec Ideal S8x16384 .f32) (bt : Vec Ideal S8x1 .i32) (r : Fin 8) (k : Fin 16384) : EReal :=
  term (x (ix2 r k)) (y (ix2 r k)) (IntOp.cmpi .slt (BitVec.ofNat 32 k.val) (bt (ix2 r 0)))

/-- The lane index array at (r, k) is k. -/
theorem lane_apply (r : Fin 8) (k : Fin 16384) :
    iota .tc S8x16384 32 [1] iota_S8x16384_d1_w32 (ix2 r k) = BitVec.ofNat 32 k.val :=
  iota_single_apply .tc S8x16384 32 1 iota_S8x16384_d1_w32 (ix2 r k)

/-- The betti column spread over the lanes reads, at (r, k), the column's row r. -/
theorem spread_apply (bt : Vec Ideal S8x1 .i32) (r : Fin 8) (k : Fin 16384) :
    broadcastTo S8x16384 bt broadcasts_S8x1_S8x16384 (ix2 r k) = bt (ix2 r 0) :=
  broadcastTo_apply bt broadcasts_S8x1_S8x16384 (ix2 r k) (ix2 r 0) (fun a => by
    match a with
    | ⟨0, _⟩ => rfl
    | ⟨1, _⟩ => rfl)

/-- The second class's term array (the payload kept for the later lane sum) at (r, k). -/
theorem terms1_apply (x y : Vec Ideal S8x16384 .f32) (bt : Vec Ideal S8x1 .i32) (r : Fin 8) (k : Fin 16384) :
    k0_pay3 x y bt (ix2 r k) = entry x y bt r k := by
  unfold k0_pay3 entry term
  simp only [shapeCast_self]
  show Scalar.select (IntOp.cmpi .slt (iota .tc S8x16384 32 [1] iota_S8x16384_d1_w32 (ix2 r k)) (broadcastTo S8x16384 bt broadcasts_S8x1_S8x16384 (ix2 r k))) _ _ = _
  rw [lane_apply, spread_apply]
  rfl

/-- The first class's term array is the same function of its three blocks. -/
def terms0 (x y : Vec Ideal S8x16384 .f32) (bt : Vec Ideal S8x1 .i32) : FVec Ideal S8x16384 .f32 :=
  k0_pay3 x y bt

/-- The lane sum of an 8 × 16384 array, read at row r. -/
theorem laneSum_apply (v : FVec Ideal S8x16384 .f32) (r : Fin 8) :
    multiReduction .add [1] S8 v 0x00000000#32 reduces_S8x16384_S8 (.inl rfl) rfl (ix1 r)
      = ∑ k : Fin 16384, v (ix2 r k) := by
  refine (Ideal.multiReduction_add_single v 0x00000000#32 reduces_S8x16384_S8 (.inl rfl) rfl (ix1 r)).trans ?_
  refine Finset.sum_congr rfl fun k _ => congrArg v (funext fun a => Fin.ext ?_)
  match a with
  | ⟨0, _⟩ => rfl
  | ⟨1, _⟩ => rfl

/-- The sublane sum of an 8 × 1 column. -/
theorem sublaneSum_apply (v : FVec Ideal S8x1 .f32) (j : S1.Idx) :
    multiReduction .add [0] S1 v 0x00000000#32 reduces_S8x1_S1 (.inl rfl) rfl j
      = ∑ r : Fin 8, v (ix2 r 0) := by
  refine (Ideal.multiReduction_add_single v 0x00000000#32 reduces_S8x1_S1 (.inl rfl) rfl j).trans ?_
  refine Finset.sum_congr rfl fun r _ => congrArg v (funext fun a => Fin.ext ?_)
  match a with
  | ⟨0, _⟩ => rfl
  | ⟨1, _⟩ =>
    have h : (j 0).val < 1 := (j 0).isLt
    show (j 0).val = 0
    exact Nat.lt_one_iff.mp h

/-- A length-8 vector recast as an 8 × 1 column reads its r-th entry at (r, 0). -/
theorem column_apply (v : FVec Ideal S8 .f32) (r : Fin 8) :
    shapeCast S8x1 v shapeCasts_S8_S8x1 (ix2 r 0) = v (ix1 r) :=
  shapeCast_apply v shapeCasts_S8_S8x1 (ix2 r 0) (ix1 r) (by
    rewrite [Shape.rowMajor_val_one, Shape.rowMajor_val_two]
    show r.val = r.val * 1 + 0
    omega)

/-- A single number recast from shape [1] to [1, 1]. -/
theorem one_to_1x1_apply (v : FVec Ideal S1 .f32) (j : S1x1.Idx) :
    shapeCast S1x1 v shapeCasts_S1_S1x1 j = v (ix1 0) :=
  shapeCast_apply v shapeCasts_S1_S1x1 j (ix1 0) (by
    rewrite [Shape.rowMajor_val_one, Shape.rowMajor_val_two]
    have h0 := (j 0).isLt
    have h1 := (j 1).isLt
    show 0 = (j 0).val * 1 + (j 1).val
    have e0 : (j 0).val = 0 := Nat.lt_one_iff.mp h0
    have e1 : (j 1).val = 0 := Nat.lt_one_iff.mp h1
    omega)

/-- A single number recast from shape [1, 1] to [1, 1, 1]. -/
theorem one_to_1x1x1_apply (v : FVec Ideal S1x1 .f32) (j : S1x1x1.Idx) :
    shapeCast S1x1x1 v shapeCasts_S1x1_S1x1x1 j = v (ix2 0 0) :=
  shapeCast_apply v shapeCasts_S1x1_S1x1x1 j (ix2 0 0) (by
    rewrite [Shape.rowMajor_val_two, Shape.rowMajor_val_three]
    have e0 : (j 0).val = 0 := Nat.lt_one_iff.mp (j 0).isLt
    have e1 : (j 1).val = 0 := Nat.lt_one_iff.mp (j 1).isLt
    have e2 : (j 2).val = 0 := Nat.lt_one_iff.mp (j 2).isLt
    show 0 * 1 + 0 = ((j 0).val * 1 + (j 1).val) * 1 + (j 2).val
    omega)

/-- The total of an 8 × 16384 array as the body forms it: lane sums, recast as a column, sublane sum, recast
    to [1, 1]. -/
theorem total_apply (v : FVec Ideal S8x16384 .f32) (j : S1x1.Idx) :
    shapeCast S1x1 (multiReduction .add [0] S1
      (shapeCast S8x1 (multiReduction .add [1] S8 v 0x00000000#32 reduces_S8x16384_S8 (.inl rfl) rfl) shapeCasts_S8_S8x1)
      0x00000000#32 reduces_S8x1_S1 (.inl rfl) rfl) shapeCasts_S1_S1x1 j
      = ∑ r : Fin 8, ∑ k : Fin 16384, v (ix2 r k) := by
  refine (one_to_1x1_apply _ j).trans ?_
  refine (sublaneSum_apply _ (ix1 0)).trans ?_
  refine Finset.sum_congr rfl fun r _ => ?_
  refine (column_apply _ r).trans ?_
  exact laneSum_apply v r

/-- The first class's total, the payload carried to the store. -/
theorem total0_apply (x y : Vec Ideal S8x16384 .f32) (bt : Vec Ideal S8x1 .i32) (j : S1x1.Idx) :
    k0_pay2 x y bt j = ∑ r : Fin 8, ∑ k : Fin 16384, entry x y bt r k := by
  refine (total_apply (terms0 x y bt) j).trans ?_
  exact Finset.sum_congr rfl fun r _ => Finset.sum_congr rfl fun k _ => terms1_apply x y bt r k

/-- The stored number: w · (class 0's total) + w · (class 1's total). -/
theorem stored_apply (x0 x1 : Vec Ideal S8x16384 .f32) (x2 : Vec Ideal S8x1 .i32)
    (x3 x4 : Vec Ideal S8x16384 .f32) (x5 : Vec Ideal S8x1 .i32) (j : S1x1x1.Idx) :
    k0_pay1 (k0_pay2 x0 x1 x2) (k0_pay3 x3 x4 x5) j
      = w * (∑ r : Fin 8, ∑ k : Fin 16384, entry x0 x1 x2 r k)
        + w * (∑ r : Fin 8, ∑ k : Fin 16384, entry x3 x4 x5 r k) := by
  unfold k0_pay1
  refine (one_to_1x1x1_apply _ j).trans ?_
  show w * k0_pay2 x0 x1 x2 (ix2 0 0) + w * _ = _
  rw [total0_apply]
  refine congrArg (w * _ + w * ·) ?_
  refine (total_apply (k0_pay3 x3 x4 x5) (ix2 0 0)).trans ?_
  exact Finset.sum_congr rfl fun r _ => Finset.sum_congr rfl fun k _ => terms1_apply x3 x4 x5 r k

end Cert.KernelIdeal.Tile

end
-- ==== Proof.TileArray.lean ====
/-
  The kernel's output array after the region, on the extended reals.

  The region has four points; point t stages rows 8t … 8t + 7 of the four gathered arrays and of the two betti
  columns, and writes entry (t, 0, 0) of the [4, 1, 1] output.  So after the region the output array holds,
  at (t, 0, 0), tile t's contribution  w · Σ_r (sample 8t + r's sum of class 0) + w · Σ_r (… of class 1),
  the samples' sums taken over the six arrays as the region finds them.
-/
import proofs.«176363_j40295383171311_2_alg».proof.Proof.TileSum

noncomputable section

open scoped BigOperators

namespace Cert.KernelIdeal.Tiles

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tile Cert.Loss

/-- A [32, 16384] array by sample and interval, and a [32, 1] column by sample. -/
def byRow (a : S32x16384.Idx → EReal) (b : Fin 32) (k : Fin 16384) : EReal := a (ix2 b k)
def byCol (a : S32x1.Idx → BitVec 32) (b : Fin 32) : BitVec 32 := a (ix2 b 0)

/-- The output array from the six arrays the windows stage: tile (i 0)'s contribution at every index i. -/
def outOf (a0 a1 : S32x16384.Idx → EReal) (a2 : S32x1.Idx → BitVec 32) (a3 a4 : S32x16384.Idx → EReal)
    (a5 : S32x1.Idx → BitVec 32) : S4x1x1.Idx → EReal := fun i =>
  tileOut (sampleSum (byRow a0) (byRow a1) (byCol a2)) (sampleSum (byRow a3) (byRow a4) (byCol a5)) ⟨(i 0).val, (i 0).isLt⟩

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the four points: every window's block index on its first axis is the point's
    number, and zero on the others. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- A point's number as a tile number. -/
def tile (t : Fin cfg0.N) : Fin 4 := ⟨t.val, lt_of_lt_of_eq t.isLt (show cfg0.N = 4 from N_0)⟩

/-- Row r, lane k of the block window 0 stages at point t is sample 8t + r, interval k of its array. -/
theorem read0 (t : Fin cfg0.N) (a : S32x16384.Idx → EReal) (r : Fin 8) (k : Fin 16384) :
    ((cfg0.win 0).blk t).view.read (Elt Ideal) a (ix2 r k) = byRow a (row (tile t) r) k := by
  obtain ⟨e0, e1, -⟩ := idx_facts t
  rw [View.read_apply]
  show a _ = a _
  refine congrArg a (funext fun x => Fin.ext ?_)
  match x with
  | ⟨0, _⟩ => show win0_0.index t (0 : Fin 2) * 8 + 1 * r.val = 8 * t.val + r.val; rw [e0]; omega
  | ⟨1, _⟩ => show win0_0.index t (1 : Fin 2) * 16384 + 1 * k.val = k.val; rw [e1]; omega

/-- The same through window 1. -/
theorem read1 (t : Fin cfg0.N) (a : S32x16384.Idx → EReal) (r : Fin 8) (k : Fin 16384) :
    ((cfg0.win 1).blk t).view.read (Elt Ideal) a (ix2 r k) = byRow a (row (tile t) r) k := by
  obtain ⟨-, -, e0, e1, -⟩ := idx_facts t
  rw [View.read_apply]
  show a _ = a _
  refine congrArg a (funext fun x => Fin.ext ?_)
  match x with
  | ⟨0, _⟩ => show win0_1.index t (0 : Fin 2) * 8 + 1 * r.val = 8 * t.val + r.val; rw [e0]; omega
  | ⟨1, _⟩ => show win0_1.index t (1 : Fin 2) * 16384 + 1 * k.val = k.val; rw [e1]; omega

/-- Row r of the column window 2 stages at point t is sample 8t + r's entry. -/
theorem read2 (t : Fin cfg0.N) (a : S32x1.Idx → BitVec 32) (r : Fin 8) :
    ((cfg0.win 2).blk t).view.read (Elt Ideal) a (ix2 r 0) = byCol a (row (tile t) r) := by
  obtain ⟨-, -, -, -, e0, e1, -⟩ := idx_facts t
  rw [View.read_apply]
  show a _ = a _
  refine congrArg a (funext fun x => Fin.ext ?_)
  match x with
  | ⟨0, _⟩ => show win0_2.index t (0 : Fin 2) * 8 + 1 * r.val = 8 * t.val + r.val; rw [e0]; omega
  | ⟨1, _⟩ => show win0_2.index t (1 : Fin 2) * 1 + 1 * 0 = 0; rw [e1]

/-- The same through window 3. -/
theorem read3 (t : Fin cfg0.N) (a : S32x16384.Idx → EReal) (r : Fin 8) (k : Fin 16384) :
    ((cfg0.win 3).blk t).view.read (Elt Ideal) a (ix2 r k) = byRow a (row (tile t) r) k := by
  obtain ⟨-, -, -, -, -, -, e0, e1, -⟩ := idx_facts t
  rw [View.read_apply]
  show a _ = a _
  refine congrArg a (funext fun x => Fin.ext ?_)
  match x with
  | ⟨0, _⟩ => show win0_3.index t (0 : Fin 2) * 8 + 1 * r.val = 8 * t.val + r.val; rw [e0]; omega
  | ⟨1, _⟩ => show win0_3.index t (1 : Fin 2) * 16384 + 1 * k.val = k.val; rw [e1]; omega

/-- The same through window 4. -/
theorem read4 (t : Fin cfg0.N) (a : S32x16384.Idx → EReal) (r : Fin 8) (k : Fin 16384) :
    ((cfg0.win 4).blk t).view.read (Elt Ideal) a (ix2 r k) = byRow a (row (tile t) r) k := by
  obtain ⟨-, -, -, -, -, -, -, -, e0, e1, -⟩ := idx_facts t
  rw [View.read_apply]
  show a _ = a _
  refine congrArg a (funext fun x => Fin.ext ?_)
  match x with
  | ⟨0, _⟩ => show win0_4.index t (0 : Fin 2) * 8 + 1 * r.val = 8 * t.val + r.val; rw [e0]; omega
  | ⟨1, _⟩ => show win0_4.index t (1 : Fin 2) * 16384 + 1 * k.val = k.val; rw [e1]; omega

/-- Row r of the column window 5 stages at point t is sample 8t + r's entry. -/
theorem read5 (t : Fin cfg0.N) (a : S32x1.Idx → BitVec 32) (r : Fin 8) :
    ((cfg0.win 5).blk t).view.read (Elt Ideal) a (ix2 r 0) = byCol a (row (tile t) r) := by
  obtain ⟨-, -, -, -, -, -, -, -, -, -, e0, e1, -⟩ := idx_facts t
  rw [View.read_apply]
  show a _ = a _
  refine congrArg a (funext fun x => Fin.ext ?_)
  match x with
  | ⟨0, _⟩ => show win0_5.index t (0 : Fin 2) * 8 + 1 * r.val = 8 * t.val + r.val; rw [e0]; omega
  | ⟨1, _⟩ => show win0_5.index t (1 : Fin 2) * 1 + 1 * 0 = 0; rw [e1]

/-- One class's total over the blocks staged at point t is the sum of tile t's eight samples' sums. -/
theorem total_eq (x y : Vec Ideal S8x16384 .f32) (bt : Vec Ideal S8x1 .i32) (B D : Fin 32 → Fin 16384 → EReal)
    (N : Fin 32 → BitVec 32) (T : Fin 4)
    (hx : ∀ r k, x (ix2 r k) = B (row T r) k) (hy : ∀ r k, y (ix2 r k) = D (row T r) k)
    (hb : ∀ r, bt (ix2 r 0) = N (row T r)) :
    (∑ r : Fin 8, ∑ k : Fin 16384, entry x y bt r k) = ∑ r : Fin 8, sampleSum B D N (row T r) := by
  refine Finset.sum_congr rfl fun r _ => Finset.sum_congr rfl fun k _ => ?_
  unfold entry
  rw [hx, hy, hb]

/-- What a point writes back, from ANY six arrays the windows stage: block t of the output array over them. -/
theorem flushed_of (t : Fin cfg0.N) (a0 a1 : S32x16384.Idx → EReal) (a2 : S32x1.Idx → BitVec 32)
    (a3 a4 : S32x16384.Idx → EReal) (a5 : S32x1.Idx → BitVec 32) :
    (cfg0.win 6).cut (grid0.coords t)
        (out0_6 (((cfg0.win 0).blk t).view.read (Elt Ideal) a0) (((cfg0.win 1).blk t).view.read (Elt Ideal) a1)
          (((cfg0.win 2).blk t).view.read (Elt Ideal) a2) (((cfg0.win 3).blk t).view.read (Elt Ideal) a3)
          (((cfg0.win 4).blk t).view.read (Elt Ideal) a4) (((cfg0.win 5).blk t).view.read (Elt Ideal) a5))
      = ((cfg0.win 6).blk t).view.read (Elt Ideal) (outOf a0 a1 a2 a3 a4 a5) := by
  unfold out0_6
  rw [View.canon_unit_zero hz3]
  simp only [View.ld_unit_zero (S := S8x16384) hz2, View.ld_unit_zero (S := S8x1) hz2]
  obtain ⟨-, -, -, -, -, -, -, -, -, -, -, -, e0, e1, e2⟩ := idx_facts t
  funext j
  refine (stored_apply _ _ _ _ _ _ j).trans ?_
  rw [total_eq _ _ _ (byRow a0) (byRow a1) (byCol a2) (tile t) (read0 t a0) (read1 t a1) (read2 t a2),
    total_eq _ _ _ (byRow a3) (byRow a4) (byCol a5) (tile t) (read3 t a3) (read4 t a4) (read5 t a5)]
  show tileOut _ _ (tile t) = outOf a0 a1 a2 a3 a4 a5 (((cfg0.win 6).blk t).view.emb j)
  unfold outOf
  refine congrArg (tileOut _ _) (Fin.ext ?_)
  show t.val = win0_6.index t (0 : Fin 3) * 1 + 1 * (j 0).val
  have hj : (j 0).val < 1 := (j 0).isLt
  rw [e0]; omega

variable (m : (ℓ : Loc nD τ sig) → Buf (Elt Ideal) ℓ)

/-- The output array over the arrays as the region finds them. -/
def outArr (c : Dev nD) : S4x1x1.Idx → EReal :=
  outOf (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5))

/-- WHAT POINT t WRITES BACK is block t of the output array. -/
theorem flushed_eq (c : Dev nD) (t : Fin cfg0.N) :
    (dats m 0 c).flushed 6 t = ((cfg0.win 6).blk t).view.read (Elt Ideal) (outArr m c) := by
  show (cfg0.win 6).cut (grid0.coords t) ((dats m 0 c).after 6 t) = _
  rw [after0_6]
  exact flushed_of t _ _ _ _ _ _

/-- An index of the output array is in point t's block iff each coordinate is in the block's range. -/
theorem mem_blk (t : Fin cfg0.N) (i : S4x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v37).slice (win0_6.rect t)).set ↔ _
  rw [View.set_slice_whole, Rect.mem_set_unit]
  exact Iff.rfl

/-- THE ARRAY after the region: every index (t, 0, 0) is in point t's block, so the array is outArr. -/
theorem final (c : Dev nD) : (dats m 0 c).arrAt 6 cfg0.N = outArr m c :=
  (dats m 0 c).arrAt_eq_of_cover 6 (outArr m c) (fun t _ => flushed_eq m c t) fun i => by
    have hN : cfg0.N = 4 := N_0
    have h0 : (i 0).val < 4 := (i 0).isLt
    have h1 : (i 1).val < 1 := (i 1).isLt
    have h2 : (i 2).val < 1 := (i 2).isLt
    refine ⟨⟨(i 0).val, lt_of_lt_of_eq h0 hN.symm⟩, flush0_6 _, ?_⟩
    rw [mem_blk]
    obtain ⟨-, -, -, -, -, -, -, -, -, -, -, -, e0, e1, e2⟩ := idx_facts ⟨(i 0).val, lt_of_lt_of_eq h0 hN.symm⟩
    intro a
    match a with
    | ⟨0, _⟩ =>
      show win0_6.index _ (0 : Fin 3) * 1 ≤ (i 0).val ∧ (i 0).val < win0_6.index _ (0 : Fin 3) * 1 + 1
      rw [e0]; exact ⟨by show (i 0).val * 1 ≤ (i 0).val; omega, by show (i 0).val < (i 0).val * 1 + 1; omega⟩
    | ⟨1, _⟩ =>
      show win0_6.index _ (1 : Fin 3) * 1 ≤ (i 1).val ∧ (i 1).val < win0_6.index _ (1 : Fin 3) * 1 + 1
      rw [e1]; omega
    | ⟨2, _⟩ =>
      show win0_6.index _ (2 : Fin 3) * 1 ≤ (i 2).val ∧ (i 2).val < win0_6.index _ (2 : Fin 3) * 1 + 1
      rw [e2]; omega

end Cert.KernelIdeal.Tiles

end
-- ==== Proof.IndexSums.lean ====
/-
  Sums over the index types of small literal shapes, as sums over their free coordinate.

  An index of shape [n] is its one coordinate; an index of shape [n, 1, 1] is its first coordinate, the other
  two being zero.  So a sum over all indices of such a shape is a sum over b < n.
-/
import Idealize.ShloMosaic.Lib.ValueIdx

noncomputable section

open scoped BigOperators

namespace Cert.IndexSums

open Idealize.ShloMosaic Idealize.ShloMosaic.ValueIdx

/-- A sum over the indices of shape [n]. -/
theorem sum_rank1 {M : Type*} [AddCommMonoid M] {n : Nat} (f : (⟨1, ![n]⟩ : Shape).Idx → M) :
    ∑ j, f j = ∑ b : Fin n, f (ix1 b) :=
  Fintype.sum_equiv
    { toFun := fun j => j 0, invFun := ix1, left_inv := fun j => (eq_ix1 j).symm, right_inv := fun _ => rfl }
    _ _ (fun j => congrArg f (eq_ix1 j))

/-- An index of shape [n, 1, 1] is (its first coordinate, 0, 0). -/
theorem eq_ix3_unit {n : Nat} (j : (⟨3, ![n, 1, 1]⟩ : Shape).Idx) : j = ix3 (j 0) 0 0 := by
  funext a
  match a with
  | ⟨0, _⟩ => rfl
  | ⟨1, _⟩ =>
    have h : (j 1).val < 1 := (j 1).isLt
    exact Fin.ext (Nat.lt_one_iff.mp h)
  | ⟨2, _⟩ =>
    have h : (j 2).val < 1 := (j 2).isLt
    exact Fin.ext (Nat.lt_one_iff.mp h)

/-- A sum over the indices of shape [n, 1, 1]. -/
theorem sum_rank3_unit {M : Type*} [AddCommMonoid M] {n : Nat} (f : (⟨3, ![n, 1, 1]⟩ : Shape).Idx → M) :
    ∑ j, f j = ∑ b : Fin n, f (ix3 b 0 0) :=
  Fintype.sum_equiv
    { toFun := fun j => j 0, invFun := fun b => ix3 b 0 0, left_inv := fun j => (eq_ix3_unit j).symm, right_inv := fun _ => rfl }
    _ _ (fun j => congrArg f (eq_ix3_unit j))

end Cert.IndexSums

end
-- ==== Proof.HostMean.lean ====
/-
  The kernel's result: the four tile contributions added and divided by 32.

  After the region the host adds the [4, 1, 1] output array over all its indices (from zero) and divides by 32.
  The array holds tile t's contribution at (t, 0, 0), so the result is  (Σ_t contribution t) · (1/32).
-/
import proofs.«176363_j40295383171311_2_alg».proof.Proof.TileArray
import proofs.«176363_j40295383171311_2_alg».proof.Proof.IndexSums
import Idealize.ShloMosaic.Lib.StableHlo.Run

noncomputable section

open scoped BigOperators

namespace Cert.KernelIdeal.HostMean

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Tiles Cert.Loss Cert.IndexSums

/-- The host's sum of a [4, 1, 1] array over all its indices, from zero. -/
theorem total_sum (y : S4x1x1.Idx → EReal) (i : S_.Idx) :
    Host.reduceAdd (F := Ideal) y (constant (F := Ideal) S_ .f32 0x00000000#32) reducesTo_S4x1x1_S_d0_1_2 h_S_ i
      = ∑ t : Fin 4, y (ix3 t 0 0) := by
  have h : Host.reduceAdd (F := Ideal) y (constant (F := Ideal) S_ .f32 0x00000000#32) reducesTo_S4x1x1_S_d0_1_2 h_S_ i
      = (constant (F := Ideal) S_ .f32 0x00000000#32) (Shape.Idx.first h_S_) + ∑ j : S4x1x1.Idx, y j := by
    simp only [Host.reduceAdd, Ideal.hostReduceAdd_def]
    exact Ideal.hostReduceAdd_total reducesTo_S4x1x1_S_d0_1_2 (fun b => b.elim0) y _ i
  rw [h, sum_rank3_unit]
  show Ideal.ofBits .f32 0x00000000#32 + _ = _
  rw [Ideal.ofBits_zero_f32, zero_add]

/-- The sum over all indices of the output array built from six arrays, divided by 32. -/
theorem mean_of (a0 a1 : S32x16384.Idx → EReal) (a2 : S32x1.Idx → BitVec 32) (a3 a4 : S32x16384.Idx → EReal)
    (a5 : S32x1.Idx → BitVec 32) (i : S_.Idx) :
    Host.divf (F := Ideal) (Host.reduceAdd (F := Ideal) (outOf a0 a1 a2 a3 a4 a5) (constant (F := Ideal) S_ .f32 0x00000000#32) reducesTo_S4x1x1_S_d0_1_2 h_S_)
        (constant (F := Ideal) S_ .f32 0x42000000#32) i
      = (∑ t : Fin 4, tileOut (sampleSum (byRow a0) (byRow a1) (byCol a2)) (sampleSum (byRow a3) (byRow a4) (byCol a5)) t)
          * ((1 / 32 : ℝ) : EReal) := by
  show Ideal.div (Host.reduceAdd (F := Ideal) (outOf a0 a1 a2 a3 a4 a5) (constant (F := Ideal) S_ .f32 0x00000000#32) reducesTo_S4x1x1_S_d0_1_2 h_S_ i)
    (Ideal.ofBits .f32 0x42000000#32) = _
  rw [div32, total_sum]
  rfl

variable (m : (ℓ : Loc nD τ sig) → Buf (Elt Ideal) ℓ)

/-- The kernel's result on core c. -/
def result (c : Dev nD) : S_.Idx → EReal := fun _ =>
  (∑ t : Fin 4, tileOut
      (sampleSum (byRow (V m c (Pipeline.arrRef spec0 0))) (byRow (V m c (Pipeline.arrRef spec0 1))) (byCol (V m c (Pipeline.arrRef spec0 2))))
      (sampleSum (byRow (V m c (Pipeline.arrRef spec0 3))) (byRow (V m c (Pipeline.arrRef spec0 4))) (byCol (V m c (Pipeline.arrRef spec0 5)))) t)
    * ((1 / 32 : ℝ) : EReal)

/-- What the host lines after the region leave in the result buffer. -/
theorem tail_eq (c : Dev nD) :
    Pipeline.afterTail₀ cfgs (dats m) 0 (V0 m) [hostOps1] c main_v39 = result m c := by
  unfold Pipeline.afterTail₀
  show StableHlo.after hostOps1 _ (Proc.devRef .tc main_v39) = _
  after_results
  rw [(Pipeline.withArrays_arr spec0 launch0.win.arr_inj c _ _ 6).trans (final m c)]
  funext i
  exact mean_of _ _ _ _ _ _ i

/-- The kernel's run: it ends with the result buffer at `result`, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v39) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v39 (Pipeline.mem_restRefs_of main_v39 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c),
        ((h c).1 2).trans (((dats m 0 c).arrAt_in 2 rfl _).trans ((A_eq m c 2).trans (V_main_arg3 m c))),
        ((h c).1 5).trans (((dats m 0 c).arrAt_in 5 rfl _).trans ((A_eq m c 5).trans (V_main_arg4 m c)))⟩)
    (run_main m ρ)

end Cert.KernelIdeal.HostMean

end
-- ==== Proof.RefMean.lean ====
/-
  The reference's result, read: w · mean₀ + w · mean₁.

  For each class the reference forms the term array over [32, 1, 16384] from its two gathered arrays and the
  betti column (the mask bit of entry (b, 0, k) is  k < betti(b, 0)  as signed integers), sums it over the
  intervals, then over the middle axis of extent one, divides by 1, sums over the 32 samples and divides by 32;
  the result is w times class 0's mean plus w times class 1's.
-/
import proofs.«176363_j40295383171311_2_alg».proof.Proof.RefRead
import proofs.«176363_j40295383171311_2_alg».proof.Proof.WeightedMean
import proofs.«176363_j40295383171311_2_alg».proof.Proof.IndexSums
import Idealize.ShloMosaic.Lib.ValueIdx

noncomputable section

open scoped BigOperators

namespace Cert.ReferenceIdeal.RefMean

open Idealize.ShloMosaic Idealize.ShloMosaic.ValueIdx
open Cert.ReferenceIdeal Cert.ReferenceIdeal.Read Cert.Loss Cert.IndexSums

/-- A [32, 1, 16384] array by sample and interval, and a [32, 1] column by sample. -/
def byRow (a : S32x1x16384.Idx → EReal) (b : Fin 32) (k : Fin 16384) : EReal := a (ix3 b 0 k)
def byCol (a : S32x1.Idx → BitVec 32) (b : Fin 32) : BitVec 32 := a (ix2 b 0)

variable (x0 : S32x1x1024x1024.Idx → EReal) (x1 x2 : S32x1x16384x2x2.Idx → BitVec 32) (x3 x4 : S32x1.Idx → BitVec 32)

/-- Class 0's term array at (b, 0, k). -/
theorem terms0_apply (b : Fin 32) (k : Fin 16384) :
    val_main_v31 (F := Ideal) x0 x1 x3 (ix3 b 0 k)
      = term (byRow (val_main_v15 (F := Ideal) x0 x1) b k) (byRow (val_main_v16 (F := Ideal) x0 x1) b k)
          (IntOp.cmpi .slt (BitVec.ofNat 32 k.val) (byCol x3 b)) := by
  have e1 : idx_main_v21 (idx_main_v23 (ix3 b 0 k)) = ix2 b 0 :=
    funext fun a => Fin.ext (by match a with | ⟨0, _⟩ => rfl | ⟨1, _⟩ => rfl)
  rw [val_main_v31_apply, val_main_v24_apply, val_main_v22_apply, val_main_v20_apply, val_main_v19_apply,
    val_main_v23_apply, val_main_v21_apply, e1, val_main_v28_apply, val_main_v27_apply, val_main_cst_1_apply,
    val_main_v26_apply, val_main_v25_apply, val_main_cst_apply, val_main_v30_apply, val_main_v29_apply,
    val_main_cst_2_apply, val_main_v18_apply, val_main_v17_apply]
  rfl

/-- Class 1's term array at (b, 0, k). -/
theorem terms1_apply (b : Fin 32) (k : Fin 16384) :
    val_main_v69 (F := Ideal) x0 x2 x4 (ix3 b 0 k)
      = term (byRow (val_main_v53 (F := Ideal) x0 x2) b k) (byRow (val_main_v54 (F := Ideal) x0 x2) b k)
          (IntOp.cmpi .slt (BitVec.ofNat 32 k.val) (byCol x4 b)) := by
  have e1 : idx_main_v59 (idx_main_v61 (ix3 b 0 k)) = ix2 b 0 :=
    funext fun a => Fin.ext (by match a with | ⟨0, _⟩ => rfl | ⟨1, _⟩ => rfl)
  rw [val_main_v69_apply, val_main_v62_apply, val_main_v60_apply, val_main_v58_apply, val_main_v57_apply,
    val_main_v61_apply, val_main_v59_apply, e1, val_main_v66_apply, val_main_v65_apply, val_main_cst_11_apply,
    val_main_v64_apply, val_main_v63_apply, val_main_cst_10_apply, val_main_v68_apply, val_main_v67_apply,
    val_main_cst_12_apply, val_main_v56_apply, val_main_v55_apply]
  rfl

/-- Class 0: sample b's sum (over the intervals, then over the middle axis of extent one). -/
theorem sample0_apply (b : Fin 32) :
    val_main_v33 (F := Ideal) x0 x1 x3 (ix1 b)
      = sampleSum (byRow (val_main_v15 (F := Ideal) x0 x1)) (byRow (val_main_v16 (F := Ideal) x0 x1)) (byCol x3) b := by
  have e : idx_main_v33 (ix1 b) 0 = ix2 b 0 :=
    funext fun a => Fin.ext (by match a with | ⟨0, _⟩ => rfl | ⟨1, _⟩ => rfl)
  have e2 : ∀ k : Fin 16384, idx_main_v32 (ix2 b 0) k = ix3 b 0 k := fun k =>
    funext fun a => Fin.ext (by match a with | ⟨0, _⟩ => rfl | ⟨1, _⟩ => rfl | ⟨2, _⟩ => rfl)
  rw [val_main_v33_apply, Fin.sum_univ_one, e, val_main_v32_apply, val_main_cst_4_apply, val_main_cst_3_apply]
  simp only [e2, terms0_apply]
  show Ideal.ofBits .f32 0x00000000#32 + (Ideal.ofBits .f32 0x00000000#32 + _) = _
  rw [Ideal.ofBits_zero_f32, zero_add, zero_add]
  rfl

/-- Class 1: sample b's sum. -/
theorem sample1_apply (b : Fin 32) :
    val_main_v71 (F := Ideal) x0 x2 x4 (ix1 b)
      = sampleSum (byRow (val_main_v53 (F := Ideal) x0 x2)) (byRow (val_main_v54 (F := Ideal) x0 x2)) (byCol x4) b := by
  have e : idx_main_v71 (ix1 b) 0 = ix2 b 0 :=
    funext fun a => Fin.ext (by match a with | ⟨0, _⟩ => rfl | ⟨1, _⟩ => rfl)
  have e2 : ∀ k : Fin 16384, idx_main_v70 (ix2 b 0) k = ix3 b 0 k := fun k =>
    funext fun a => Fin.ext (by match a with | ⟨0, _⟩ => rfl | ⟨1, _⟩ => rfl | ⟨2, _⟩ => rfl)
  rw [val_main_v71_apply, Fin.sum_univ_one, e, val_main_v70_apply, val_main_cst_14_apply, val_main_cst_13_apply]
  simp only [e2, terms1_apply]
  show Ideal.ofBits .f32 0x00000000#32 + (Ideal.ofBits .f32 0x00000000#32 + _) = _
  rw [Ideal.ofBits_zero_f32, zero_add, zero_add]
  rfl

/-- Class 0's mean: the 32 samples' sums, each divided by 1, added and divided by 32. -/
theorem mean0_apply :
    val_main_v37 (F := Ideal) x0 x1 x3 ix0
      = (∑ b : Fin 32, sampleSum (byRow (val_main_v15 (F := Ideal) x0 x1)) (byRow (val_main_v16 (F := Ideal) x0 x1)) (byCol x3) b)
          * ((1 / 32 : ℝ) : EReal) := by
  rw [val_main_v37_apply, val_main_v36_apply, val_main_cst_7_apply, val_main_cst_6_apply, sum_rank1]
  simp only [val_main_v35_apply, val_main_v34_apply, val_main_cst_5_apply, sample0_apply]
  show Ideal.div (Ideal.ofBits .f32 0x00000000#32 + ∑ b : Fin 32, Ideal.div _ (Ideal.ofBits .f32 0x3F800000#32))
    (Ideal.ofBits .f32 0x42000000#32) = _
  rw [Ideal.ofBits_zero_f32, zero_add, div32]
  simp only [div1]

/-- Class 1's mean. -/
theorem mean1_apply :
    val_main_v75 (F := Ideal) x0 x2 x4 ix0
      = (∑ b : Fin 32, sampleSum (byRow (val_main_v53 (F := Ideal) x0 x2)) (byRow (val_main_v54 (F := Ideal) x0 x2)) (byCol x4) b)
          * ((1 / 32 : ℝ) : EReal) := by
  rw [val_main_v75_apply, val_main_v74_apply, val_main_cst_17_apply, val_main_cst_16_apply, sum_rank1]
  simp only [val_main_v73_apply, val_main_v72_apply, val_main_cst_15_apply, sample1_apply]
  show Ideal.div (Ideal.ofBits .f32 0x00000000#32 + ∑ b : Fin 32, Ideal.div _ (Ideal.ofBits .f32 0x3F800000#32))
    (Ideal.ofBits .f32 0x42000000#32) = _
  rw [Ideal.ofBits_zero_f32, zero_add, div32]
  simp only [div1]

/-- The reference's result: w · mean₀ + w · mean₁. -/
theorem result_apply :
    val_main_v78 (F := Ideal) x0 x1 x2 x3 x4 ix0
      = w * ((∑ b : Fin 32, sampleSum (byRow (val_main_v15 (F := Ideal) x0 x1)) (byRow (val_main_v16 (F := Ideal) x0 x1)) (byCol x3) b)
              * ((1 / 32 : ℝ) : EReal))
        + w * ((∑ b : Fin 32, sampleSum (byRow (val_main_v53 (F := Ideal) x0 x2)) (byRow (val_main_v54 (F := Ideal) x0 x2)) (byCol x4) b)
              * ((1 / 32 : ℝ) : EReal)) := by
  rw [val_main_v78_apply, val_main_v76_apply, val_main_v77_apply, val_main_cst_18_apply, val_main_cst_19_apply,
    mean0_apply, mean1_apply]
  rfl

end Cert.ReferenceIdeal.RefMean

end
-- ==== Proof.GatheredB0.lean ====
/-
  The four gathered arrays as the region finds them.

  Before the region the host computes, for each class, the flat pixel index  row · 1024 + col  of every
  interval's birth and death, and gathers the prediction at those indices (with the wrap of negative indices and
  the out-of-range fill the gather's library function adds), giving a [32, 1, 16384] array that is then recast
  to [32, 16384].  The reference performs the same operations on the same arguments, so each array the region
  finds is the recast of the reference's own gathered array: the two are one term.
-/
import proofs.«176363_j40295383171311_2_alg».proof.Proof.Gen.KernelIdeal.Frame
import proofs.«176363_j40295383171311_2_alg».proof.Proof.RefRead

noncomputable section

namespace Cert.KernelIdeal.GatheredB0

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 65536 in
set_option maxHeartbeats 8000000 in
/-- Births of class 0: the region finds the recast of the reference's own gathered array. -/
theorem births0 (c : Dev nD) :
    (V m c main_v17 : S32x16384.Idx → EReal)
      = shapeCast S32x16384 (Cert.ReferenceIdeal.Read.val_main_v15 (F := Ideal)
          (m ((c.tc : Thread nD τ).loc main_arg0)) (m ((c.tc : Thread nD τ).loc main_arg1))) shapeCasts_S32x1x16384_S32x16384 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  simp only [TRef.toBuf, TRef.ofBuf, cast_eq]
  rfl

end Cert.KernelIdeal.GatheredB0

end
-- ==== Proof.GatheredD0.lean ====
/-
  The four gathered arrays as the region finds them.

  Before the region the host computes, for each class, the flat pixel index  row · 1024 + col  of every
  interval's birth and death, and gathers the prediction at those indices (with the wrap of negative indices and
  the out-of-range fill the gather's library function adds), giving a [32, 1, 16384] array that is then recast
  to [32, 16384].  The reference performs the same operations on the same arguments, so each array the region
  finds is the recast of the reference's own gathered array: the two are one term.
-/
import proofs.«176363_j40295383171311_2_alg».proof.Proof.Gen.KernelIdeal.Frame
import proofs.«176363_j40295383171311_2_alg».proof.Proof.RefRead

noncomputable section

namespace Cert.KernelIdeal.GatheredD0

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 65536 in
set_option maxHeartbeats 8000000 in
/-- Deaths of class 0: the region finds the recast of the reference's own gathered array. -/
theorem deaths0 (c : Dev nD) :
    (V m c main_v18 : S32x16384.Idx → EReal)
      = shapeCast S32x16384 (Cert.ReferenceIdeal.Read.val_main_v16 (F := Ideal)
          (m ((c.tc : Thread nD τ).loc main_arg0)) (m ((c.tc : Thread nD τ).loc main_arg1))) shapeCasts_S32x1x16384_S32x16384 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  simp only [TRef.toBuf, TRef.ofBuf, cast_eq]
  rfl

end Cert.KernelIdeal.GatheredD0

end
-- ==== Proof.GatheredB1.lean ====
/-
  The four gathered arrays as the region finds them.

  Before the region the host computes, for each class, the flat pixel index  row · 1024 + col  of every
  interval's birth and death, and gathers the prediction at those indices (with the wrap of negative indices and
  the out-of-range fill the gather's library function adds), giving a [32, 1, 16384] array that is then recast
  to [32, 16384].  The reference performs the same operations on the same arguments, so each array the region
  finds is the recast of the reference's own gathered array: the two are one term.
-/
import proofs.«176363_j40295383171311_2_alg».proof.Proof.Gen.KernelIdeal.Frame
import proofs.«176363_j40295383171311_2_alg».proof.Proof.RefRead

noncomputable section

namespace Cert.KernelIdeal.GatheredB1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 65536 in
set_option maxHeartbeats 8000000 in
/-- Births of class 1: the region finds the recast of the reference's own gathered array. -/
theorem births1 (c : Dev nD) :
    (V m c main_v35 : S32x16384.Idx → EReal)
      = shapeCast S32x16384 (Cert.ReferenceIdeal.Read.val_main_v53 (F := Ideal)
          (m ((c.tc : Thread nD τ).loc main_arg0)) (m ((c.tc : Thread nD τ).loc main_arg2))) shapeCasts_S32x1x16384_S32x16384 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  simp only [TRef.toBuf, TRef.ofBuf, cast_eq]
  rfl

end Cert.KernelIdeal.GatheredB1

end
-- ==== Proof.GatheredD1.lean ====
/-
  The four gathered arrays as the region finds them.

  Before the region the host computes, for each class, the flat pixel index  row · 1024 + col  of every
  interval's birth and death, and gathers the prediction at those indices (with the wrap of negative indices and
  the out-of-range fill the gather's library function adds), giving a [32, 1, 16384] array that is then recast
  to [32, 16384].  The reference performs the same operations on the same arguments, so each array the region
  finds is the recast of the reference's own gathered array: the two are one term.
-/
import proofs.«176363_j40295383171311_2_alg».proof.Proof.Gen.KernelIdeal.Frame
import proofs.«176363_j40295383171311_2_alg».proof.Proof.RefRead

noncomputable section

namespace Cert.KernelIdeal.GatheredD1

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

set_option maxRecDepth 65536 in
set_option maxHeartbeats 8000000 in
/-- Deaths of class 1: the region finds the recast of the reference's own gathered array. -/
theorem deaths1 (c : Dev nD) :
    (V m c main_v36 : S32x16384.Idx → EReal)
      = shapeCast S32x16384 (Cert.ReferenceIdeal.Read.val_main_v54 (F := Ideal)
          (m ((c.tc : Thread nD τ).loc main_arg0)) (m ((c.tc : Thread nD τ).loc main_arg2))) shapeCasts_S32x1x16384_S32x16384 := by
  dsimp only [V, V0]
  simp only [hostOps0, hostOps0_1, hostOps0_2, hostOps0_3, hostOps0_4, hostOps0_5, hostOps0_6, List.flatten_cons, List.flatten_nil,
    List.append_nil, List.cons_append, List.nil_append]
  after_results_simp
  simp only [TRef.toBuf, TRef.ofBuf, cast_eq]
  rfl

end Cert.KernelIdeal.GatheredD1

end
-- ==== Proof.Bridge.lean ====
/-
  The two results are one number.

  Run from memories agreeing on the arguments, the kernel ends with  (Σ_t tile t's contribution) · (1/32)  over the six
  arrays its region finds, the reference with  w · mean₀ + w · mean₁  over its own gathered arrays and betti columns.
  Each array the region finds is the reference's array of the same arguments, recast from [32, 1, 16384] to
  [32, 16384] (so entry (b, k) of the one is entry (b, 0, k) of the other), and the betti columns are the arguments
  themselves; hence the samples' sums agree, and the tiled total over 32 is the weighted sum of the two means.
-/
import proofs.«176363_j40295383171311_2_alg».proof.Proof.HostMean
import proofs.«176363_j40295383171311_2_alg».proof.Proof.RefMean
import proofs.«176363_j40295383171311_2_alg».proof.Proof.GatheredB0
import proofs.«176363_j40295383171311_2_alg».proof.Proof.GatheredD0
import proofs.«176363_j40295383171311_2_alg».proof.Proof.GatheredB1
import proofs.«176363_j40295383171311_2_alg».proof.Proof.GatheredD1

noncomputable section

open scoped BigOperators

namespace Cert.Bridge

open Idealize.ShloMosaic Idealize.ShloMosaic.TcCoe Idealize.ShloMosaic.ValueIdx Idealize.SL.Sem
open Cert.Loss

/-- Entry (b, k) of a [32, 1, 16384] array recast to [32, 16384] is its entry (b, 0, k). -/
theorem recast_apply (a : Cert.ReferenceIdeal.S32x1x16384.Idx → EReal)
    (h : Cert.ReferenceIdeal.S32x1x16384.ShapeCasts Cert.KernelIdeal.S32x16384) (b : Fin 32) (k : Fin 16384) :
    shapeCast Cert.KernelIdeal.S32x16384 a h (ix2 b k) = a (ix3 b 0 k) :=
  shapeCast_apply a h (ix2 b k) (ix3 b 0 k) (by
    rewrite [Shape.rowMajor_val_three, Shape.rowMajor_val_two]
    show (b.val * 1 + 0) * 16384 + k.val = b.val * 16384 + k.val
    omega)

/-- A recast gathered array by sample and interval. -/
theorem byRow_recast (a : Cert.ReferenceIdeal.S32x1x16384.Idx → EReal)
    (h : Cert.ReferenceIdeal.S32x1x16384.ShapeCasts Cert.KernelIdeal.S32x16384) :
    Cert.KernelIdeal.Tiles.byRow (shapeCast Cert.KernelIdeal.S32x16384 a h) = Cert.ReferenceIdeal.RefMean.byRow a := by
  funext b k
  exact recast_apply a h b k

section Agree

open Cert.KernelIdeal Cert.KernelIdeal.Gen

variable (m : (ℓ : Loc nD τ sig) → Buf (Elt Ideal) ℓ)

/-- The arrays of windows 0 … 5, under the names @main gives their buffers. -/
theorem arr0 (c : Dev nD) : (V m c (Pipeline.arrRef spec0 0) : S32x16384.Idx → EReal) = V m c main_v17 := rfl
theorem arr1 (c : Dev nD) : (V m c (Pipeline.arrRef spec0 1) : S32x16384.Idx → EReal) = V m c main_v18 := rfl
theorem arr2 (c : Dev nD) : (V m c (Pipeline.arrRef spec0 2) : S32x1.Idx → BitVec 32) = V m c main_arg3 := rfl
theorem arr3 (c : Dev nD) : (V m c (Pipeline.arrRef spec0 3) : S32x16384.Idx → EReal) = V m c main_v35 := rfl
theorem arr4 (c : Dev nD) : (V m c (Pipeline.arrRef spec0 4) : S32x16384.Idx → EReal) = V m c main_v36 := rfl
theorem arr5 (c : Dev nD) : (V m c (Pipeline.arrRef spec0 5) : S32x1.Idx → BitVec 32) = V m c main_arg4 := rfl

/-- Births and deaths of both classes, by sample and interval: the region's arrays are the reference's. -/
theorem rows0 (c : Dev nD) :
    Tiles.byRow (V m c (Pipeline.arrRef spec0 0))
      = Cert.ReferenceIdeal.RefMean.byRow (Cert.ReferenceIdeal.Read.val_main_v15 (F := Ideal)
          (m ((c.tc : Thread nD τ).loc main_arg0)) (m ((c.tc : Thread nD τ).loc main_arg1))) := by
  rw [arr0 m c, Cert.KernelIdeal.GatheredB0.births0 m c]
  exact byRow_recast _ _

theorem rows1 (c : Dev nD) :
    Tiles.byRow (V m c (Pipeline.arrRef spec0 1))
      = Cert.ReferenceIdeal.RefMean.byRow (Cert.ReferenceIdeal.Read.val_main_v16 (F := Ideal)
          (m ((c.tc : Thread nD τ).loc main_arg0)) (m ((c.tc : Thread nD τ).loc main_arg1))) := by
  rw [arr1 m c, Cert.KernelIdeal.GatheredD0.deaths0 m c]
  exact byRow_recast _ _

theorem rows3 (c : Dev nD) :
    Tiles.byRow (V m c (Pipeline.arrRef spec0 3))
      = Cert.ReferenceIdeal.RefMean.byRow (Cert.ReferenceIdeal.Read.val_main_v53 (F := Ideal)
          (m ((c.tc : Thread nD τ).loc main_arg0)) (m ((c.tc : Thread nD τ).loc main_arg2))) := by
  rw [arr3 m c, Cert.KernelIdeal.GatheredB1.births1 m c]
  exact byRow_recast _ _

theorem rows4 (c : Dev nD) :
    Tiles.byRow (V m c (Pipeline.arrRef spec0 4))
      = Cert.ReferenceIdeal.RefMean.byRow (Cert.ReferenceIdeal.Read.val_main_v54 (F := Ideal)
          (m ((c.tc : Thread nD τ).loc main_arg0)) (m ((c.tc : Thread nD τ).loc main_arg2))) := by
  rw [arr4 m c, Cert.KernelIdeal.GatheredD1.deaths1 m c]
  exact byRow_recast _ _

/-- The betti columns are the arguments themselves. -/
theorem col2 (c : Dev nD) :
    Tiles.byCol (V m c (Pipeline.arrRef spec0 2)) = Cert.ReferenceIdeal.RefMean.byCol (m ((c.tc : Thread nD τ).loc main_arg3)) := by
  rw [arr2 m c, V_main_arg3 m c]
  rfl

theorem col5 (c : Dev nD) :
    Tiles.byCol (V m c (Pipeline.arrRef spec0 5)) = Cert.ReferenceIdeal.RefMean.byCol (m ((c.tc : Thread nD τ).loc main_arg4)) := by
  rw [arr5 m c, V_main_arg4 m c]
  rfl

/-- THE BRIDGE: the kernel's result is the reference's last stage of the same arguments. -/
theorem result_eq (c : Dev nD) :
    Cert.KernelIdeal.HostMean.result m c
      = Cert.ReferenceIdeal.Read.val_main_v78 (F := Ideal) (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4)) := by
  funext i
  rw [eq_ix0 i, Cert.ReferenceIdeal.RefMean.result_apply]
  unfold Cert.KernelIdeal.HostMean.result
  rw [rows0 m c, rows1 m c, col2 m c, rows3 m c, rows4 m c, col5 m c]
  exact tiled_mean _ _

end Agree

end Cert.Bridge

end
-- ==== Proof.lean ====
/-
  The certificate's five claims.

  The kernel gathers, per class, every interval's birth and death value of the prediction on the host, and a
  four-point region then turns them into per-tile contributions  w · Σ (class 0's terms) + w · Σ (class 1's terms)
  which the host adds and divides by 32.  The reference gathers the same values, forms each class's mean over the
  32 samples and returns  w · mean₀ + w · mean₁.

  Frames: both printed kernels' runs are the generated ones; the reference is a straight line of host operations.
  Nothing was rewritten when the kernel was idealized, so that claim is trivial.  The value claim: both programs end
  with one number — the kernel's is read off its run block by block, the reference's stage by stage, and the
  tiled total over 32 is the weighted sum of the two means on all extended reals (a nonnegative real factor
  distributes over sums there), so no finiteness of the inputs is used.
-/
import proofs.«176363_j40295383171311_2_alg».proof.Defs
import proofs.«176363_j40295383171311_2_alg».proof.Proof.Gen.Kernel
import proofs.«176363_j40295383171311_2_alg».proof.Proof.Gen.Kernel.Skeleton
import proofs.«176363_j40295383171311_2_alg».proof.Proof.Gen.Kernel.Launch
import proofs.«176363_j40295383171311_2_alg».proof.Proof.Gen.Kernel.Points
import proofs.«176363_j40295383171311_2_alg».proof.Proof.Gen.Kernel.Frame
import proofs.«176363_j40295383171311_2_alg».proof.Proof.Gen.KernelIdeal
import proofs.«176363_j40295383171311_2_alg».proof.Proof.Gen.KernelIdeal.Skeleton
import proofs.«176363_j40295383171311_2_alg».proof.Proof.Gen.KernelIdeal.Launch
import proofs.«176363_j40295383171311_2_alg».proof.Proof.Gen.KernelIdeal.Points
import proofs.«176363_j40295383171311_2_alg».proof.Proof.Gen.KernelIdeal.Frame
import proofs.«176363_j40295383171311_2_alg».proof.Proof.Gen.ReferenceIdeal
import proofs.«176363_j40295383171311_2_alg».proof.Proof.Gen.Pre_finite_inputs
import proofs.«176363_j40295383171311_2_alg».proof.Proof.RefValue
import proofs.«176363_j40295383171311_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The ideal pass rewrote nothing. -/
theorem preserves : Cert.preserves_Kernel_KernelIdeal := trivial

/-- Both programs end with one number: the kernel's tiled total over 32 is the reference's weighted sum of means. -/
theorem algebraic : Cert.algebraic_KernelIdeal_ReferenceIdeal := by
  intro m ρ m' ρ' _ hagree
  refine ⟨fun c => Cert.KernelIdeal.HostMean.result m c, Cert.KernelIdeal.HostMean.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
